-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S1024x128 : Shape := ⟨2, ![1024, 128]⟩
abbrev S100000x1 : Shape := ⟨2, ![100000, 1]⟩
abbrev S1024 : Shape := ⟨1, ![1024]⟩
abbrev S1024x1 : Shape := ⟨2, ![1024, 1]⟩
abbrev S1x2 : Shape := ⟨2, ![1, 2]⟩
abbrev S1024x2 : Shape := ⟨2, ![1024, 2]⟩

abbrev nBuf : Space → Nat
  | .hbm => 130
  | .vmem => 15
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x128, .f32⟩
  | 61 => ⟨S1700000x1, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x128, .f32⟩
  | 72 => ⟨S1700000x128, .f32⟩
  | 73 => ⟨S_, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S100000x128, .f32⟩
  | 84 => ⟨S1x128, .f32⟩
  | 85 => ⟨S100000x128, .f32⟩
  | 86 => ⟨S1700000x1, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x128, .f32⟩
  | 96 => ⟨S1700000x128, .f32⟩
  | 97 => ⟨S1700000x128, .f32⟩
  | 98 => ⟨S_, .f32⟩
  | 99 => ⟨S100000x128, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S1024x128, .f32⟩
  | 114 => ⟨S100000x1, .i32⟩
  | 115 => ⟨S1024x128, .f32⟩
  | 116 => ⟨S_, .f32⟩
  | 117 => ⟨S100000, .f32⟩
  | 118 => ⟨S_, .f32⟩
  | 119 => ⟨S1024, .f32⟩
  | 120 => ⟨S100000x1, .i32⟩
  | 121 => ⟨S1024, .f32⟩
  | 122 => ⟨S_, .f32⟩
  | 123 => ⟨S1024, .f32⟩
  | 124 => ⟨S1024, .f32⟩
  | 125 => ⟨S1024x1, .f32⟩
  | 126 => ⟨S1024x128, .f32⟩
  | 127 => ⟨S1024x128, .f32⟩
  | _ => ⟨S100000x128, .f32⟩

abbrev hbmTy0_1 (i : Nat) : BufTy := match i % 128 with
  | 0 => ⟨S1x2, .f32⟩
  | 1 => ⟨S1024x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S1024x128, .f32⟩
  | .local _ .vmem, ⟨12, _⟩ => ⟨S128x2, .f32⟩
  | .local _ .vmem, ⟨13, _⟩ => ⟨S1x2, .f32⟩
  | .local _ .vmem, ⟨14, _⟩ => ⟨S1024x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_c_15 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_c_18 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_19 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_20 : Ref sig .tc := ⟨.hbm, 116, rfl⟩
abbrev main_v83 : Ref sig .tc := ⟨.hbm, 117, rfl⟩
abbrev main_cst_21 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_22 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S2_S1x2 : S2.ShapeCasts S1x2
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x2.size a ≤ S1024x2.size a
  hwx2_3 : ∀ i : grid2.Coords, EltTy.bits .f32 = 32 ∨ (Rect.block (s := S1024x2) S1024x2.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v91) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v92) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v93) S1024x2.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1024x128 : Shape := ⟨2, ![1024, 128]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x128, .f32⟩
  | 61 => ⟨S1700000x1, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x128, .f32⟩
  | 72 => ⟨S1700000x128, .f32⟩
  | 73 => ⟨S_, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S1700000x1, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x128, .f32⟩
  | 102 => ⟨S1700000x128, .f32⟩
  | 103 => ⟨S_, .f32⟩
  | 104 => ⟨S100000x128, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S1024x128, .f32⟩
  | 119 => ⟨S100000x1, .i32⟩
  | 120 => ⟨S1024x128, .f32⟩
  | 121 => ⟨S_, .f32⟩
  | 122 => ⟨S100000, .f32⟩
  | 123 => ⟨S_, .f32⟩
  | 124 => ⟨S1024, .f32⟩
  | 125 => ⟨S100000x1, .i32⟩
  | 126 => ⟨S1024, .f32⟩
  | 127 => ⟨S_, .f32⟩
  | _ => ⟨S100000x128, .f32⟩

abbrev hbmTy0_1 (i : Nat) : BufTy := match i % 128 with
  | 0 => ⟨S1024, .f32⟩
  | 1 => ⟨S1024, .f32⟩
  | 2 => ⟨S1024x1, .f32⟩
  | 3 => ⟨S1024x128, .f32⟩
  | 4 => ⟨S1024x128, .f32⟩
  | 5 => ⟨S1024x2, .f32⟩
  | 6 => ⟨S1x2, .f32⟩
  | 7 => ⟨S1024x2, .f32⟩
  | 8 => ⟨S1024x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call1_cst : Ref sig .tc := ⟨.hbm, 87, rfl⟩
abbrev main_call1_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_c_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_20 : Ref sig .tc := ⟨.hbm, 121, rfl⟩
abbrev main_v86 : Ref sig .tc := ⟨.hbm, 122, rfl⟩
abbrev main_cst_21 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_22 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x2_S1024x2_1_0_0_1_n_n_wf : DotDims.WF S1024x128 S128x2 S1024x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

class Facts : Prop extends Facts₀ where

variable [Facts]
-- ==== Proof.KRun.lean ====
/-
  The idealized kernel's run with its result named. Every weakly fair execution of @main terminates, nothing faults, the
  argument arrays end as launched, and the result array ends at the last boundary's contents: the three pipelines'
  write-backs folded through the host operations between them, from the launch memory.
-/
import proofs.«158617_j85349590106379_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the segments of @main, read at the result array as well as at the arguments: the result holds the last
    boundary's contents. -/
theorem run_out : θ_run defs (onTc (τ := τ) (main (F := F))) ⟨m, fun _ => 0, ρ⟩ (fun r => ∀ c : Dev nD,
      r.2.mem ((c.tc : Thread nD τ).loc main_v93) = W8 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v93 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.KRun

end
-- ==== Proof.KHost.lean ====
/-
  The host operations before the first region. The edge list with the self loops appended (the source and the target
  endpoints of every edge), the degree of every node, its inverse square root where the degree is positive, and the
  symmetric weight of every edge are computed by the same operations in the same order as in the reference, so the
  buffers that hold them when the first region is entered hold the reference's stages of the edge-list argument; no
  operation of these stretches writes an argument array.
-/
import proofs.«158617_j85349590106379_1_alg».proof.Proof.Gen.KernelIdeal.Frame
import proofs.«158617_j85349590106379_1_alg».proof.Proof.ReadP

set_option maxRecDepth 16384

noncomputable section

namespace Cert.KernelIdeal.KHost

open Cert.KernelIdeal Cert.KernelIdeal.Gen Cert.ReferenceIdeal.ReadP
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch writes keeps its contents through the stretch: the stretch's operations are
    listed, and the buffer differs from each one's result buffer. -/
macro "not_written" : tactic => `(tactic| (
  refine StableHlo.after_of_forall_not_mem _ _ (List.forall_iff_forall_mem.mp ?_)
  simp only [hostOps0, hostOps0_1, hostOps0_2, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The argument arrays when the first region is entered -/
theorem W3_main_arg0 (c : Dev nD) : W3 m ρ c (Proc.devRef .tc main_arg0) = m ((c : Thread nD τ).loc main_arg0) :=
  calc W3 m ρ c (Proc.devRef .tc main_arg0) = W2 m ρ c (Proc.devRef .tc main_arg0) := by not_written
    _ = W1 m ρ c (Proc.devRef .tc main_arg0) := by not_written
    _ = W0 m ρ c (Proc.devRef .tc main_arg0) := by not_written
    _ = m ((c : Thread nD τ).loc main_arg0) := rfl

theorem W3_main_arg2 (c : Dev nD) : W3 m ρ c (Proc.devRef .tc main_arg2) = m ((c : Thread nD τ).loc main_arg2) :=
  calc W3 m ρ c (Proc.devRef .tc main_arg2) = W2 m ρ c (Proc.devRef .tc main_arg2) := by not_written
    _ = W1 m ρ c (Proc.devRef .tc main_arg2) := by not_written
    _ = W0 m ρ c (Proc.devRef .tc main_arg2) := by not_written
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3) = W2 m ρ c (Proc.devRef .tc main_arg3) := by not_written
    _ = W1 m ρ c (Proc.devRef .tc main_arg3) := by not_written
    _ = W0 m ρ c (Proc.devRef .tc main_arg3) := by not_written
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4) = W2 m ρ c (Proc.devRef .tc main_arg4) := by not_written
    _ = W1 m ρ c (Proc.devRef .tc main_arg4) := by not_written
    _ = W0 m ρ c (Proc.devRef .tc main_arg4) := by not_written
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5) = W2 m ρ c (Proc.devRef .tc main_arg5) := by not_written
    _ = W1 m ρ c (Proc.devRef .tc main_arg5) := by not_written
    _ = W0 m ρ c (Proc.devRef .tc main_arg5) := by not_written
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6) = W2 m ρ c (Proc.devRef .tc main_arg6) := by not_written
    _ = W1 m ρ c (Proc.devRef .tc main_arg6) := by not_written
    _ = W0 m ρ c (Proc.devRef .tc main_arg6) := by not_written
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7) = W2 m ρ c (Proc.devRef .tc main_arg7) := by not_written
    _ = W1 m ρ c (Proc.devRef .tc main_arg7) := by not_written
    _ = W0 m ρ c (Proc.devRef .tc main_arg7) := by not_written
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8) = W2 m ρ c (Proc.devRef .tc main_arg8) := by not_written
    _ = W1 m ρ c (Proc.devRef .tc main_arg8) := by not_written
    _ = W0 m ρ c (Proc.devRef .tc main_arg8) := by not_written
    _ = m ((c : Thread nD τ).loc main_arg8) := rfl

/-! ## After the first stretch: endpoints, degrees, inverse square roots -/

set_option maxHeartbeats 4000000 in
theorem W1_main_v3 (c : Dev nD) : W1 m ρ c (Proc.devRef .tc main_v3) = val_main_v3 (F := F) (m ((c : Thread nD τ).loc main_arg1)) := by
  dsimp only [W1, hostOps0]
  after_results
  rfl

set_option maxHeartbeats 4000000 in
theorem W1_main_v6 (c : Dev nD) : W1 m ρ c (Proc.devRef .tc main_v6) = val_main_v6 (F := F) (m ((c : Thread nD τ).loc main_arg1)) := by
  dsimp only [W1, hostOps0]
  after_results
  rfl

set_option maxHeartbeats 4000000 in
theorem W1_main_v7 (c : Dev nD) : W1 m ρ c (Proc.devRef .tc main_v7) = val_main_v7 (F := F) := by
  dsimp only [W1, hostOps0]
  after_results
  rfl

set_option maxHeartbeats 4000000 in
theorem W1_main_cst_4 (c : Dev nD) : W1 m ρ c (Proc.devRef .tc main_cst_4) = val_main_cst_4 (F := F) := by
  dsimp only [W1, hostOps0]
  after_results
  rfl

set_option maxHeartbeats 16000000 in
theorem W1_main_v17 (c : Dev nD) : W1 m ρ c (Proc.devRef .tc main_v17) = val_main_v17 (F := F) (m ((c : Thread nD τ).loc main_arg1)) := by
  dsimp only [W1, hostOps0]
  after_results
  rfl

set_option maxHeartbeats 16000000 in
theorem W1_main_v20 (c : Dev nD) : W1 m ρ c (Proc.devRef .tc main_v20) = val_main_v20 (F := F) (m ((c : Thread nD τ).loc main_arg1)) := by
  dsimp only [W1, hostOps0]
  after_results
  rfl

/-! ## After the selection of the inverse square roots (zero where the degree is zero) -/

theorem W2_main_v3 (c : Dev nD) : W2 m ρ c (Proc.devRef .tc main_v3) = val_main_v3 (F := F) (m ((c : Thread nD τ).loc main_arg1)) :=
  (by not_written : W2 m ρ c (Proc.devRef .tc main_v3) = W1 m ρ c (Proc.devRef .tc main_v3)).trans (W1_main_v3 m ρ c)

theorem W2_main_v6 (c : Dev nD) : W2 m ρ c (Proc.devRef .tc main_v6) = val_main_v6 (F := F) (m ((c : Thread nD τ).loc main_arg1)) :=
  (by not_written : W2 m ρ c (Proc.devRef .tc main_v6) = W1 m ρ c (Proc.devRef .tc main_v6)).trans (W1_main_v6 m ρ c)

theorem W2_main_v7 (c : Dev nD) : W2 m ρ c (Proc.devRef .tc main_v7) = val_main_v7 (F := F) :=
  (by not_written : W2 m ρ c (Proc.devRef .tc main_v7) = W1 m ρ c (Proc.devRef .tc main_v7)).trans (W1_main_v7 m ρ c)

theorem W2_main_v21 (c : Dev nD) : W2 m ρ c (Proc.devRef .tc main_v21) = val_main_v21 (F := F) (m ((c : Thread nD τ).loc main_arg1)) := by
  have h17 := W1_main_v17 m ρ c
  have h20 := W1_main_v20 m ρ c
  have h4 := W1_main_cst_4 m ρ c
  show StableHlo.after hostOps0_1 (W1 m ρ c) (Proc.devRef .tc main_v21) = _
  generalize W1 m ρ c = V at h17 h20 h4 ⊢
  dsimp only [hostOps0_1]
  after_results_simp
  rw [h17, h20, h4]
  rfl

/-! ## When the first region is entered: the edge weights -/

theorem W3_main_v3 (c : Dev nD) : W3 m ρ c (Proc.devRef .tc main_v3) = val_main_v3 (F := F) (m ((c : Thread nD τ).loc main_arg1)) :=
  (by not_written : W3 m ρ c (Proc.devRef .tc main_v3) = W2 m ρ c (Proc.devRef .tc main_v3)).trans (W2_main_v3 m ρ c)

theorem W3_main_v6 (c : Dev nD) : W3 m ρ c (Proc.devRef .tc main_v6) = val_main_v6 (F := F) (m ((c : Thread nD τ).loc main_arg1)) :=
  (by not_written : W3 m ρ c (Proc.devRef .tc main_v6) = W2 m ρ c (Proc.devRef .tc main_v6)).trans (W2_main_v6 m ρ c)

set_option maxHeartbeats 4000000 in
/-- The weight of every edge: the inverse square roots of its two endpoints' degrees, multiplied. -/
theorem W3_main_v37 (c : Dev nD) : W3 m ρ c (Proc.devRef .tc main_v37) = val_main_v37 (F := F) (m ((c : Thread nD τ).loc main_arg1)) := by
  have h3 := W2_main_v3 m ρ c
  have h6 := W2_main_v6 m ρ c
  have h21 := W2_main_v21 m ρ c
  have h7 := W2_main_v7 m ρ c
  show StableHlo.after hostOps0_2 (W2 m ρ c) (Proc.devRef .tc main_v37) = _
  generalize W2 m ρ c = V at h3 h6 h21 h7 ⊢
  dsimp only [hostOps0_2]
  after_results_simp
  rw [h3, h6, h21, h7]
  rfl

end Cert.KernelIdeal.KHost

end
-- ==== Proof.Spec.lean ====
/-
  The three dense layers of the network, entry by entry, on the extended reals.

  `mm x w` is the matrix product: entry (p, q) is the sum over k of x(p, k) · w(k, q). The first layer is `mm x W1`; the
  second adds a bias row to every row of its input, cuts at zero, and multiplies: `biasReluMm a b w`; the last multiplies
  and then adds a bias row: `mmBias p w b`. Addition and multiplication on the extended reals are commutative and
  associative everywhere, and no other law is used: the three layers are the same sums on both sides, term by term.
-/
import Idealize.ShloMosaic.Lib.ValueIdx
import Idealize.ShloMosaic.PureOps.Ideal

noncomputable section

open scoped BigOperators

namespace Cert.Spec

open Idealize.ShloMosaic Idealize.ShloMosaic.ValueIdx

/-- The matrix product, entry by entry. -/
def mm {R K N : Nat} (x : (⟨2, ![R, K]⟩ : Shape).Idx → EReal) (w : (⟨2, ![K, N]⟩ : Shape).Idx → EReal) :
    (⟨2, ![R, N]⟩ : Shape).Idx → EReal :=
  fun i => ∑ k : Fin K, x (ix2 (i 0 : Fin R) k) * w (ix2 k (i 1 : Fin N))

theorem mm_apply {R K N : Nat} (x : (⟨2, ![R, K]⟩ : Shape).Idx → EReal) (w : (⟨2, ![K, N]⟩ : Shape).Idx → EReal)
    (p : Fin R) (q : Fin N) : mm x w (ix2 p q) = ∑ k : Fin K, x (ix2 p k) * w (ix2 k q) := rfl

/-- A bias row added to every row, cut at zero. -/
def biasRelu {R K : Nat} (a : (⟨2, ![R, K]⟩ : Shape).Idx → EReal) (b : (⟨2, ![1, K]⟩ : Shape).Idx → EReal) :
    (⟨2, ![R, K]⟩ : Shape).Idx → EReal :=
  fun i => max (a i + b (ix2 (0 : Fin 1) (i 1 : Fin K))) 0

theorem biasRelu_apply {R K : Nat} (a : (⟨2, ![R, K]⟩ : Shape).Idx → EReal) (b : (⟨2, ![1, K]⟩ : Shape).Idx → EReal)
    (p : Fin R) (k : Fin K) : biasRelu a b (ix2 p k) = max (a (ix2 p k) + b (ix2 (0 : Fin 1) k)) 0 := rfl

/-- The second layer: bias, cut at zero, then the product. -/
def biasReluMm {R K N : Nat} (a : (⟨2, ![R, K]⟩ : Shape).Idx → EReal) (b : (⟨2, ![1, K]⟩ : Shape).Idx → EReal)
    (w : (⟨2, ![K, N]⟩ : Shape).Idx → EReal) : (⟨2, ![R, N]⟩ : Shape).Idx → EReal :=
  mm (biasRelu a b) w

theorem biasReluMm_apply {R K N : Nat} (a : (⟨2, ![R, K]⟩ : Shape).Idx → EReal) (b : (⟨2, ![1, K]⟩ : Shape).Idx → EReal)
    (w : (⟨2, ![K, N]⟩ : Shape).Idx → EReal) (p : Fin R) (q : Fin N) :
    biasReluMm a b w (ix2 p q) = ∑ k : Fin K, max (a (ix2 p k) + b (ix2 (0 : Fin 1) k)) 0 * w (ix2 k q) := rfl

/-- The last layer: the product, then a bias row added to every row. -/
def mmBias {R K N : Nat} (p : (⟨2, ![R, K]⟩ : Shape).Idx → EReal) (w : (⟨2, ![K, N]⟩ : Shape).Idx → EReal)
    (b : (⟨2, ![1, N]⟩ : Shape).Idx → EReal) : (⟨2, ![R, N]⟩ : Shape).Idx → EReal :=
  fun i => mm p w i + b (ix2 (0 : Fin 1) (i 1 : Fin N))

theorem mmBias_apply {R K N : Nat} (p : (⟨2, ![R, K]⟩ : Shape).Idx → EReal) (w : (⟨2, ![K, N]⟩ : Shape).Idx → EReal)
    (b : (⟨2, ![1, N]⟩ : Shape).Idx → EReal) (r : Fin R) (q : Fin N) :
    mmBias p w b (ix2 r q) = ∑ k : Fin K, p (ix2 r k) * w (ix2 k q) + b (ix2 (0 : Fin 1) q) := rfl

end Cert.Spec

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.RegionVal.lean ====
/-
  The three dense layers of the kernel, region by region: what each region leaves in its result array, as one function
  of the arrays the region finds.

  Each region's body computes, from the blocks it has loaded, a block of a matrix product (the second layer after adding
  a bias row and cutting at zero, the last one before adding a bias row). Entry (p, q) of a product reads row p of the
  left operand and column q of the right one, so the block a grid point writes back is that point's block of the
  whole-array function: the block's coordinate in the array is always block index × block size + the coordinate inside
  the block, the row windows sit at block (t, 0) at point t, the weight and bias windows at block (0, 0). The first two
  layers cut their 100000 rows into ten blocks of 10000 rows, and row r lies in the block of point r / 10000; the last
  layer has one point whose blocks are the whole arrays. Every index of the result array is therefore covered, and the
  array ends holding the whole-array function.
-/
import proofs.«158617_j85349590106379_1_alg».proof.Proof.Gen.KernelIdeal.Frame
import proofs.«158617_j85349590106379_1_alg».proof.Proof.Spec
import proofs.«158617_j85349590106379_1_alg».proof.Proof.LibSoftplus
import proofs.«158617_j85349590106379_1_alg».proof.Proof.LibDenseLayer
import Idealize.ShloMosaic.Lib.Pipeline.Value
import Idealize.ShloMosaic.Lib.ValueLayout

set_option maxRecDepth 16384

noncomputable section

open scoped BigOperators

namespace Cert.KernelIdeal.RegionVal

open Cert.KernelIdeal Cert.KernelIdeal.Gen Idealize.ShloMosaic Idealize.ShloMosaic.TcCoe Idealize.SL.Sem
open Idealize.ShloMosaic.ValueIdx Idealize.ShloMosaic.StackMember
open Idealize.ShloMosaic.Pipeline (Dat)

/-! ## The three bodies at one entry -/

/-- The first layer's body: entry (p, q) of the product of the two loaded blocks. -/
theorem pay0_apply (x0 : Vec Ideal S10000x128 .f32) (x1 : Vec Ideal S128x128 .f32)
    (p : Fin 10000) (q : Fin 128) :
    k0_pay1 x0 x1 (ix2 p q) = ∑ k : Fin 128, x0 (ix2 p k) * x1 (ix2 k q) := by
  unfold k0_pay1
  exact Cert.Lib.Softplus.matmul0_plain_apply dot_S10000x128_S128x128_S10000x128_1_0_0_1_n_n rfl none _ _ p q

/-- The second layer's body: the bias row added to row p, cut at zero, times column q. -/
theorem pay1_apply (x0 : Vec Ideal S10000x128 .f32) (x1 : Vec Ideal S1x128 .f32) (x2 : Vec Ideal S128x128 .f32)
    (p : Fin 10000) (q : Fin 128) :
    k1_pay1 x0 x1 x2 (ix2 p q) = ∑ k : Fin 128, max (x0 (ix2 p k) + x1 (ix2 (0 : Fin 1) k)) 0 * x2 (ix2 k q) := by
  unfold k1_pay1
  simp only [shapeCast_self]
  refine (Cert.Lib.Softplus.matmul0_plain_apply dot_S10000x128_S128x128_S10000x128_1_0_0_1_n_n rfl none _ _ p q).trans ?_
  refine Finset.sum_congr rfl fun k _ => ?_
  refine congrArg (· * x2 (ix2 k q)) ?_
  show maximumf (addf x0 (broadcastTo S10000x128 x1 broadcasts_S1x128_S10000x128))
      (broadcast S10000x128 (Scalar.ofBits (F := Ideal) .f32 0x00000000#32)) (ix2 p k) = _
  rw [Cert.Lib.DenseLayer.relu_apply, addf_apply, broadcastTo_1b_ab_apply]

/-- The last layer's body: row p times column q, plus the bias entry q. -/
theorem pay2_apply (x0 : Vec Ideal S1024x128 .f32) (x1 : Vec Ideal S128x2 .f32) (x2 : Vec Ideal S1x2 .f32)
    (p : Fin 1024) (q : Fin 2) :
    k2_pay1 x0 x1 x2 (ix2 p q) = ∑ k : Fin 128, x0 (ix2 p k) * x1 (ix2 k q) + x2 (ix2 (0 : Fin 1) q) := by
  unfold k2_pay1
  simp only [shapeCast_self]
  rw [addf_apply, broadcastTo_1b_ab_apply]
  refine congrArg (· + x2 (ix2 (0 : Fin 1) q)) ?_
  exact Cert.Lib.Softplus.matmul0_plain_apply dot_S1024x128_S128x2_S1024x2_1_0_0_1_n_n rfl none _ _ p q

variable (V : (c : Dev nD) → (b : Ref sig .tc) → Buf (Elt Ideal) ((c : Thread nD τ).loc b))

theorem hz : (![0, 0] : Fin 2 → Nat) = fun _ => 0 := funext fun a => by fin_cases a <;> rfl

/-! ## The last layer: one grid point, every block whole -/

/-- Every window of the last layer sits at block index (0, 0). -/
theorem idx2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

set_option maxHeartbeats 400000 in
/-- The block of the pooled array is the array. -/
theorem iblk2_0_apply (c : Dev nD) (t : Fin cfg2.N) (p : Fin 1024) (k : Fin 128) :
    (iblk2 V c 0 t : Vec Ideal S1024x128 .f32) (ix2 p k) = (V c main_v91 : S1024x128.Idx → Ideal .f32) (ix2 p k) := by
  obtain ⟨e0, e1, -⟩ := idx2 t
  unfold iblk2
  rw [View.read_apply]
  show V c main_v91 _ = V c main_v91 _
  congr 1
  funext a; apply Fin.ext
  match a with
  | ⟨0, _⟩ => show win2_0.index t (0 : Fin 2) * 1024 + 1 * p.val = p.val; omega
  | ⟨1, _⟩ => show win2_0.index t (1 : Fin 2) * 128 + 1 * k.val = k.val; omega

set_option maxHeartbeats 400000 in
/-- The block of the weight matrix is the matrix. -/
theorem iblk2_1_apply (c : Dev nD) (t : Fin cfg2.N) (k : Fin 128) (q : Fin 2) :
    (iblk2 V c 1 t : Vec Ideal S128x2 .f32) (ix2 k q) = (V c main_arg7 : S128x2.Idx → Ideal .f32) (ix2 k q) := by
  obtain ⟨-, -, e0, e1, -⟩ := idx2 t
  unfold iblk2
  rw [View.read_apply]
  show V c main_arg7 _ = V c main_arg7 _
  congr 1
  funext a; apply Fin.ext
  match a with
  | ⟨0, _⟩ => show win2_1.index t (0 : Fin 2) * 128 + 1 * k.val = k.val; omega
  | ⟨1, _⟩ => show win2_1.index t (1 : Fin 2) * 2 + 1 * q.val = q.val; omega

set_option maxHeartbeats 400000 in
/-- The block of the bias row is the row. -/
theorem iblk2_2_apply (c : Dev nD) (t : Fin cfg2.N) (z : Fin 1) (q : Fin 2) :
    (iblk2 V c 2 t : Vec Ideal S1x2 .f32) (ix2 z q) = (V c main_v92 : S1x2.Idx → Ideal .f32) (ix2 z q) := by
  obtain ⟨-, -, -, -, e0, e1, -⟩ := idx2 t
  unfold iblk2
  rw [View.read_apply]
  show V c main_v92 _ = V c main_v92 _
  congr 1
  funext a; apply Fin.ext
  match a with
  | ⟨0, _⟩ => show win2_2.index t (0 : Fin 2) * 1 + 1 * z.val = z.val; omega
  | ⟨1, _⟩ => show win2_2.index t (1 : Fin 2) * 2 + 1 * q.val = q.val; omega

set_option maxHeartbeats 400000 in
/-- What the one point writes back is the block of the whole layer's result. -/
theorem flushed2_eq (c : Dev nD) (t : Fin cfg2.N) :
    (dat2 (F := Ideal) V c).flushed 3 t = ((cfg2.win 3).blk t).view.read (Elt Ideal)
      (Cert.Spec.mmBias (R := 1024) (K := 128) (N := 2) (V c main_v91) (V c main_arg7) (V c main_v92)) := by
  show (cfg2.win 3).cut (grid2.coords t) ((dat2 V c).after 3 t) = _
  rw [after2_3]
  unfold out2_3
  rw [View.canon_unit_zero hz]
  simp only [View.ld_unit_zero (S := S1024x128) hz, View.ld_unit_zero (S := S128x2) hz, View.ld_unit_zero (S := S1x2) hz]
  obtain ⟨-, -, -, -, -, -, e0, e1⟩ := idx2 t
  refine funext fun (j : S1024x2.Idx) => ?_
  obtain ⟨p, q, rfl⟩ : ∃ (p : Fin 1024) (q : Fin 2), j = ix2 p q := ⟨j 0, j 1, eq_ix2 j⟩
  have hemb : ((cfg2.win 3).blk t).view.emb (ix2 p q) = (ix2 p q : S1024x2.Idx) := by
    funext a; apply Fin.ext
    match a with
    | ⟨0, _⟩ => show win2_3.index t (0 : Fin 2) * 1024 + 1 * p.val = p.val; omega
    | ⟨1, _⟩ => show win2_3.index t (1 : Fin 2) * 2 + 1 * q.val = q.val; omega
  show k2_pay1 (iblk2 V c 0 t) (iblk2 V c 1 t) (iblk2 V c 2 t) (ix2 p q)
    = Cert.Spec.mmBias (R := 1024) (K := 128) (N := 2) (V c main_v91) (V c main_arg7) (V c main_v92)
        (((cfg2.win 3).blk t).view.emb (ix2 p q))
  rw [hemb, Cert.Spec.mmBias_apply]
  refine (pay2_apply (iblk2 V c 0 t) (iblk2 V c 1 t) (iblk2 V c 2 t) p q).trans ?_
  rw [iblk2_2_apply V c t 0 q]
  refine congrArg (· + (V c main_v92 : S1x2.Idx → Ideal .f32) (ix2 (0 : Fin 1) q)) ?_
  refine Finset.sum_congr rfl fun k _ => ?_
  rw [iblk2_0_apply V c t p k, iblk2_1_apply V c t k q]

/-- An index of the result is in the point's block iff each coordinate is in the block's range. -/
theorem mem_blk2 (t : Fin cfg2.N) (i : S1024x2.Idx) :
    i ∈ ((cfg2.win 3).blk t).view.set ↔ ∀ a : Fin 2, win2_3.index t a * S1024x2.size a ≤ (i a).val
      ∧ (i a).val < win2_3.index t a * S1024x2.size a + S1024x2.size a := by
  show i ∈ ((View.whole main_v93).slice (win2_3.rect t)).set ↔ _
  rw [View.set_slice_whole, Rect.mem_set_unit]
  exact Iff.rfl

set_option maxHeartbeats 400000 in
/-- The last layer's result array after the region: the product plus the bias row. -/
theorem region2 (c : Dev nD) : (dat2 (F := Ideal) V c).arrAt 3 cfg2.N
    = Cert.Spec.mmBias (R := 1024) (K := 128) (N := 2) (V c main_v91) (V c main_arg7) (V c main_v92) :=
  (dat2 (F := Ideal) V c).arrAt_eq_of_cover 3 _ (fun t _ => flushed2_eq V c t) fun i => by
    have hN : cfg2.N = 1 := N_2
    let t : Fin cfg2.N := ⟨0, by rw [hN]; decide⟩
    refine ⟨t, flush2_3 t, ?_⟩
    obtain ⟨-, -, -, -, -, -, e0, e1⟩ := idx2 t
    have h0 : ((i : S1024x2.Idx) 0).val < 1024 := (i 0).isLt
    have h1 : ((i : S1024x2.Idx) 1).val < 2 := (i 1).isLt
    rw [mem_blk2]
    intro a
    match a with
    | ⟨0, _⟩ => show win2_3.index t (0 : Fin 2) * 1024 ≤ (i 0).val ∧ (i 0).val < win2_3.index t (0 : Fin 2) * 1024 + 1024; omega
    | ⟨1, _⟩ => show win2_3.index t (1 : Fin 2) * 2 ≤ (i 1).val ∧ (i 1).val < win2_3.index t (1 : Fin 2) * 2 + 2; omega

/-! ## The first layer: ten blocks of 10000 rows -/

/-- The first layer's block indices over the grid: the rows' windows sit at block (t, 0), the weight's at (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 400000 in
/-- Block t of the input is its rows 10000 t … 10000 t + 9999. -/
theorem iblk0_0_apply (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : S100000x128.Idx → Ideal .f32) (ix2 r k) := by
  obtain ⟨e0, e1, -⟩ := idx0 t
  unfold iblk0
  rw [View.read_apply]
  show V c main_arg0 _ = V c main_arg0 _
  congr 1
  funext a; apply Fin.ext
  match a with
  | ⟨0, _⟩ => show win0_0.index t (0 : Fin 2) * 10000 + 1 * p.val = r.val; omega
  | ⟨1, _⟩ => show win0_0.index t (1 : Fin 2) * 128 + 1 * k.val = k.val; omega

set_option maxHeartbeats 400000 in
/-- The block of the weight matrix is the matrix, at every point. -/
theorem iblk0_1_apply (c : Dev nD) (t : Fin cfg0.N) (k : Fin 128) (q : Fin 128) :
    (iblk0 V c 1 t : Vec Ideal S128x128 .f32) (ix2 k q) = (V c main_arg3 : S128x128.Idx → Ideal .f32) (ix2 k q) := by
  obtain ⟨-, -, e0, e1, -⟩ := idx0 t
  unfold iblk0
  rw [View.read_apply]
  show V c main_arg3 _ = V c main_arg3 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

set_option maxHeartbeats 400000 in
/-- What point t writes back is block t of the whole product: row p of the block is row 10000 t + p of the
    product, which reads only that row of the input. -/
theorem flushed0_eq (c : Dev nD) (t : Fin cfg0.N) :
    (dat0 (F := Ideal) V c).flushed 2 t = ((cfg0.win 2).blk t).view.read (Elt Ideal)
      (Cert.Spec.mm (R := 100000) (K := 128) (N := 128) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e0, e1⟩ := idx0 t
  have hN : cfg0.N = 10 := N_0
  have ht : t.val < 10 := by have := t.isLt; omega
  refine funext fun (j : S10000x128.Idx) => ?_
  obtain ⟨p, q, rfl⟩ : ∃ (p : Fin 10000) (q : Fin 128), j = ix2 p q := ⟨j 0, j 1, eq_ix2 j⟩
  have hr : t.val * 10000 + p.val < 100000 := by omega
  have hemb : ((cfg0.win 2).blk t).view.emb (ix2 p q)
      = (ix2 (⟨t.val * 10000 + p.val, hr⟩ : Fin 100000) q : S100000x128.Idx) := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  show k0_pay1 (iblk0 V c 0 t) (iblk0 V c 1 t) (ix2 p q)
    = Cert.Spec.mm (R := 100000) (K := 128) (N := 128) (V c main_arg0) (V c main_arg3)
        (((cfg0.win 2).blk t).view.emb (ix2 p q))
  rw [hemb, Cert.Spec.mm_apply]
  refine (pay0_apply (iblk0 V c 0 t) (iblk0 V c 1 t) p q).trans ?_
  refine Finset.sum_congr rfl fun k _ => ?_
  rw [iblk0_0_apply V c t p k ⟨t.val * 10000 + p.val, hr⟩ rfl, iblk0_1_apply V c t k q]

/-- An index of the product is in point t's block iff each coordinate is in the block's range. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v38).slice (win0_2.rect t)).set ↔ _
  rw [View.set_slice_whole, Rect.mem_set_unit]
  exact Iff.rfl

set_option maxHeartbeats 400000 in
/-- The first layer's result array after the region is the product: row r is written by point r / 10000. -/
theorem region0 (c : Dev nD) : (dat0 (F := Ideal) V c).arrAt 2 cfg0.N
    = Cert.Spec.mm (R := 100000) (K := 128) (N := 128) (V c main_arg0) (V c main_arg3) :=
  (dat0 (F := Ideal) V c).arrAt_eq_of_cover 2 _ (fun t _ => flushed0_eq V c t) fun i => by
    have hN : cfg0.N = 10 := N_0
    have h0 : ((i : S100000x128.Idx) 0).val < 100000 := (i 0).isLt
    have h1 : ((i : S100000x128.Idx) 1).val < 128 := (i 1).isLt
    obtain ⟨t, ht⟩ : ∃ t : Fin cfg0.N, t.val = ((i : S100000x128.Idx) 0).val / 10000 :=
      ⟨⟨((i : S100000x128.Idx) 0).val / 10000, by rw [hN]; omega⟩, rfl⟩
    refine ⟨t, flush0_2 t, ?_⟩
    obtain ⟨-, -, -, -, e0, e1⟩ := idx0 t
    rw [mem_blk0]
    intro a
    match a with
    | ⟨0, _⟩ => show win0_2.index t (0 : Fin 2) * 10000 ≤ (i 0).val ∧ (i 0).val < win0_2.index t (0 : Fin 2) * 10000 + 10000; omega
    | ⟨1, _⟩ => show win0_2.index t (1 : Fin 2) * 128 ≤ (i 1).val ∧ (i 1).val < win0_2.index t (1 : Fin 2) * 128 + 128; omega

/-! ## The second layer: ten blocks of 10000 rows -/

/-- The second layer's block indices over the grid: the rows' windows sit at block (t, 0), the bias row's and the
    weight's at (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 400000 in
/-- Block t of the aggregated input is its rows 10000 t … 10000 t + 9999. -/
theorem iblk1_0_apply (c : Dev nD) (t : Fin cfg1.N) (p : Fin 10000) (k : Fin 128) (r : Fin 100000)
    (hr : r.val = t.val * 10000 + p.val) :
    (iblk1 V c 0 t : Vec Ideal S10000x128 .f32) (ix2 p k) = (V c main_v56 : S100000x128.Idx → Ideal .f32) (ix2 r k) := by
  obtain ⟨e0, e1, -⟩ := idx1 t
  unfold iblk1
  rw [View.read_apply]
  show V c main_v56 _ = V c main_v56 _
  congr 1
  funext a; apply Fin.ext
  match a with
  | ⟨0, _⟩ => show win1_0.index t (0 : Fin 2) * 10000 + 1 * p.val = r.val; omega
  | ⟨1, _⟩ => show win1_0.index t (1 : Fin 2) * 128 + 1 * k.val = k.val; omega

set_option maxHeartbeats 400000 in
/-- The block of the bias row is the row, at every point. -/
theorem iblk1_1_apply (c : Dev nD) (t : Fin cfg1.N) (z : Fin 1) (k : Fin 128) :
    (iblk1 V c 1 t : Vec Ideal S1x128 .f32) (ix2 z k) = (V c main_v57 : S1x128.Idx → Ideal .f32) (ix2 z k) := by
  obtain ⟨-, -, e0, e1, -⟩ := idx1 t
  unfold iblk1
  rw [View.read_apply]
  show V c main_v57 _ = V c main_v57 _
  congr 1
  funext a; apply Fin.ext
  match a with
  | ⟨0, _⟩ => show win1_1.index t (0 : Fin 2) * 1 + 1 * z.val = z.val; omega
  | ⟨1, _⟩ => show win1_1.index t (1 : Fin 2) * 128 + 1 * k.val = k.val; omega

set_option maxHeartbeats 400000 in
/-- The block of the weight matrix is the matrix, at every point. -/
theorem iblk1_2_apply (c : Dev nD) (t : Fin cfg1.N) (k : Fin 128) (q : Fin 128) :
    (iblk1 V c 2 t : Vec Ideal S128x128 .f32) (ix2 k q) = (V c main_arg5 : S128x128.Idx → Ideal .f32) (ix2 k q) := by
  obtain ⟨-, -, -, -, e0, e1, -⟩ := idx1 t
  unfold iblk1
  rw [View.read_apply]
  show V c main_arg5 _ = V c main_arg5 _
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

set_option maxHeartbeats 400000 in
/-- What point t writes back is block t of the whole layer's result: row p of the block is row 10000 t + p of the
    result, which reads only that row of the aggregated input, the bias row and the weight. -/
theorem flushed1_eq (c : Dev nD) (t : Fin cfg1.N) :
    (dat1 (F := Ideal) V c).flushed 3 t = ((cfg1.win 3).blk t).view.read (Elt Ideal)
      (Cert.Spec.biasReluMm (R := 100000) (K := 128) (N := 128) (V c main_v56) (V c main_v57) (V c main_arg5)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x128) hz]
  obtain ⟨-, -, -, -, -, -, e0, e1⟩ := idx1 t
  have hN : cfg1.N = 10 := N_1
  have ht : t.val < 10 := by have := t.isLt; omega
  refine funext fun (j : S10000x128.Idx) => ?_
  obtain ⟨p, q, rfl⟩ : ∃ (p : Fin 10000) (q : Fin 128), j = ix2 p q := ⟨j 0, j 1, eq_ix2 j⟩
  have hr : t.val * 10000 + p.val < 100000 := by omega
  have hemb : ((cfg1.win 3).blk t).view.emb (ix2 p q)
      = (ix2 (⟨t.val * 10000 + p.val, hr⟩ : Fin 100000) q : S100000x128.Idx) := by
    funext a; apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  show k1_pay1 (iblk1 V c 0 t) (iblk1 V c 1 t) (iblk1 V c 2 t) (ix2 p q)
    = Cert.Spec.biasReluMm (R := 100000) (K := 128) (N := 128) (V c main_v56) (V c main_v57) (V c main_arg5)
        (((cfg1.win 3).blk t).view.emb (ix2 p q))
  rw [hemb, Cert.Spec.biasReluMm_apply]
  refine (pay1_apply (iblk1 V c 0 t) (iblk1 V c 1 t) (iblk1 V c 2 t) p q).trans ?_
  refine Finset.sum_congr rfl fun k _ => ?_
  rw [iblk1_0_apply V c t p k ⟨t.val * 10000 + p.val, hr⟩ rfl, iblk1_1_apply V c t 0 k, iblk1_2_apply V c t k q]

/-- An index of the result is in point t's block iff each coordinate is in the block's range. -/
theorem mem_blk1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v58).slice (win1_3.rect t)).set ↔ _
  rw [View.set_slice_whole, Rect.mem_set_unit]
  exact Iff.rfl

set_option maxHeartbeats 400000 in
/-- The second layer's result array after the region: row r is written by point r / 10000. -/
theorem region1 (c : Dev nD) : (dat1 (F := Ideal) V c).arrAt 3 cfg1.N
    = Cert.Spec.biasReluMm (R := 100000) (K := 128) (N := 128) (V c main_v56) (V c main_v57) (V c main_arg5) :=
  (dat1 (F := Ideal) V c).arrAt_eq_of_cover 3 _ (fun t _ => flushed1_eq V c t) fun i => by
    have hN : cfg1.N = 10 := N_1
    have h0 : ((i : S100000x128.Idx) 0).val < 100000 := (i 0).isLt
    have h1 : ((i : S100000x128.Idx) 1).val < 128 := (i 1).isLt
    obtain ⟨t, ht⟩ : ∃ t : Fin cfg1.N, t.val = ((i : S100000x128.Idx) 0).val / 10000 :=
      ⟨⟨((i : S100000x128.Idx) 0).val / 10000, by rw [hN]; omega⟩, rfl⟩
    refine ⟨t, flush1_3 t, ?_⟩
    obtain ⟨-, -, -, -, -, -, e0, e1⟩ := idx1 t
    rw [mem_blk1]
    intro a
    match a with
    | ⟨0, _⟩ => show win1_3.index t (0 : Fin 2) * 10000 ≤ (i 0).val ∧ (i 0).val < win1_3.index t (0 : Fin 2) * 10000 + 10000; omega
    | ⟨1, _⟩ => show win1_3.index t (1 : Fin 2) * 128 ≤ (i 1).val ∧ (i 1).val < win1_3.index t (1 : Fin 2) * 128 + 128; omega

end Cert.KernelIdeal.RegionVal

end
-- ==== Proof.RefLayers.lean ====
/-
  The reference's three dense layers, each as the entry-by-entry function of its operands.

  The host's `dot_general` of an [R, K] by a [K, N] matrix is, at entry (p, q), the sum over k of the products; the bias
  rows reach every row through two broadcasts ([K] to [1, K] to [R, K]); the cut at zero is a maximum with a splat of
  the zero word, which is the real zero.
-/
import proofs.«158617_j85349590106379_1_alg».proof.Proof.ReadP
import proofs.«158617_j85349590106379_1_alg».proof.Proof.Spec
import Idealize.ShloMosaic.Lib.StackMember
import Idealize.ShloMosaic.Lib.KernelVsHost

noncomputable section

open scoped BigOperators

namespace Cert.ReferenceIdeal.RefLayers

open Cert.ReferenceIdeal Cert.ReferenceIdeal.Gen Cert.ReferenceIdeal.ReadP
open Idealize.ShloMosaic Idealize.ShloMosaic.ValueIdx Idealize.ShloMosaic.StackMember

/-- The product of the node features (or the hidden features) by a square weight matrix. -/
theorem dot_big (a : FVec Ideal S100000x128 .f32) (w : FVec Ideal S128x128 .f32) :
    Host.dotGeneral dot_S100000x128_S128x128_S100000x128_1_0_0_1_n_n none a w = Cert.Spec.mm (R := 100000) (K := 128) (N := 128) a w := by
  have hD : dot_S100000x128_S128x128_S100000x128_1_0_0_1_n_n = DotDims.plain 100000 128 128 := rfl
  rw [hD]
  funext i
  obtain ⟨p, q, rfl⟩ : ∃ (p : Fin 100000) (q : Fin 128), i = ix2 p q := ⟨i 0, i 1, eq_ix2 i⟩
  exact dotGeneral_plain_apply none a w p q

/-- The product of the pooled features by the read-out matrix. -/
theorem dot_small (a : FVec Ideal S1024x128 .f32) (w : FVec Ideal S128x2 .f32) :
    Host.dotGeneral dot_S1024x128_S128x2_S1024x2_1_0_0_1_n_n none a w = Cert.Spec.mm (R := 1024) (K := 128) (N := 2) a w := by
  have hD : dot_S1024x128_S128x2_S1024x2_1_0_0_1_n_n = DotDims.plain 1024 128 2 := rfl
  rw [hD]
  funext i
  obtain ⟨p, q, rfl⟩ : ∃ (p : Fin 1024) (q : Fin 2), i = ix2 p q := ⟨i 0, i 1, eq_ix2 i⟩
  exact dotGeneral_plain_apply none a w p q

/-- A bias row added to every row and cut at zero, as the host spells it: the row broadcast down the rows, an addition,
    a maximum with a splat of the zero word. -/
theorem bias_relu (a : FVec Ideal S100000x128 .f32) (b : FVec Ideal S1x128 .f32) :
    maximumf (addf a (broadcastInDim S100000x128 ![0, 1] bcast_S1x128_S100000x128_0_1 b))
        (broadcastInDim S100000x128 ![] bcast_S_S100000x128 (constant (F := Ideal) S_ .f32 0x00000000#32))
      = Cert.Spec.biasRelu (R := 100000) (K := 128) a b := by
  funext i
  obtain ⟨p, k, rfl⟩ : ∃ (p : Fin 100000) (k : Fin 128), i = ix2 p k := ⟨i 0, i 1, eq_ix2 i⟩
  rw [Cert.Spec.biasRelu_apply, maximumf_apply, addf_apply,
    broadcastInDim_oneRow_apply (m := 100000) (n := 128) bcast_S1x128_S100000x128_0_1 b p k]
  show max (a (ix2 p k) + b (ix2 (0 : Fin 1) k)) (Ideal.ofBits .f32 0x00000000#32) = _
  rw [Ideal.ofBits_zero_f32]

/-- The first layer's product. -/
theorem v38_eq (x0 : (⟨S100000x128, .f32⟩ : BufTy).Contents (Elt Ideal)) (x3 : (⟨S128x128, .f32⟩ : BufTy).Contents (Elt Ideal)) :
    val_main_v38 (F := Ideal) x0 x3 = Cert.Spec.mm (R := 100000) (K := 128) (N := 128) x0 x3 :=
  dot_big x0 x3

/-- The second layer: bias, cut at zero, product. -/
theorem v61_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v61 (F := Ideal) x0 x1 x3 x4 x5
      = Cert.Spec.biasReluMm (R := 100000) (K := 128) (N := 128) (val_main_v56 (F := Ideal) x0 x1 x3) (val_main_v57 (F := Ideal) x4) x5 := by
  unfold val_main_v61 val_main_v60 val_main_v59 val_main_v58 val_main_call1_v0 val_main_call1_cst
  generalize val_main_v56 (F := Ideal) x0 x1 x3 = a
  generalize val_main_v57 (F := Ideal) x4 = b
  rw [bias_relu a b, dot_big]
  rfl

/-- The last layer: product, then bias. -/
theorem v98_eq (x0 : (⟨S100000x128, .f32⟩ : BufTy).Contents (Elt Ideal)) (x1 : (⟨S2x1600000, .i32⟩ : BufTy).Contents (Elt Ideal))
    (x2 : (⟨S100000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x2, .f32⟩ : BufTy).Contents (Elt Ideal)) (x8 : (⟨S2, .f32⟩ : BufTy).Contents (Elt Ideal)) :
    val_main_v98 (F := Ideal) x0 x1 x2 x3 x4 x5 x6 x7 x8
      = Cert.Spec.mmBias (R := 1024) (K := 128) (N := 2) (val_main_v94 (F := Ideal) x0 x1 x2 x3 x4 x5 x6) x7 (val_main_v96 (F := Ideal) x8) := by
  unfold val_main_v98 val_main_v97 val_main_v95
  generalize val_main_v94 (F := Ideal) x0 x1 x2 x3 x4 x5 x6 = a
  generalize val_main_v96 (F := Ideal) x8 = b
  rw [dot_small]
  funext i
  obtain ⟨r, q, rfl⟩ : ∃ (r : Fin 1024) (q : Fin 2), i = ix2 r q := ⟨i 0, i 1, eq_ix2 i⟩
  rw [addf_apply, broadcastInDim_oneRow_apply (m := 1024) (n := 2) bcast_S1x2_S1024x2_0_1 b r q]
  rfl

end Cert.ReferenceIdeal.RefLayers

end
-- ==== Proof.LibRowCast.lean ====
/-
  A vector of n entries laid out as a one-row matrix, two spellings: the reshape of the [n] array to [1, n], and its
  broadcast along axis 1 of a [1, n] array. Both read, at (0, t), the vector's entry t.
-/
import Idealize.ShloMosaic.Lib.Pipeline.Value
import Idealize.ShloMosaic.Lib.ValueIdx

noncomputable section

namespace Cert.Lib.RowCast

open Idealize.ShloMosaic Idealize.ShloMosaic.ValueIdx

/-- The reshape of a vector to a one-row matrix is its broadcast along the row. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply x h1 (ix2 (0 : Fin 1) t) (ix1 t) (by
    rw [Shape.rowMajor_val_two, Shape.rowMajor_val_one]; show t.val = 0 * n + t.val; omega)
  have e3 := broadcastInDim_apply ![1] hd x (ix2 (0 : Fin 1) t) (ix1 t) (by
    intro a
    match a with
    | ⟨0, _⟩ =>
      show t.val = if n = 1 then 0 else t.val
      split
      · have := t.isLt; omega
      · rfl)
  exact e2.trans e3.symm

end Cert.Lib.RowCast

end
-- ==== Proof.KVal.lean ====
/-
  The idealized kernel's result array is the reference's last stage of the argument arrays.

  Between the regions the kernel's @main runs the reference's own host operations — the gather of the transformed
  features along the edges, their scaling by the edge weights, the scatter-add into the target nodes; after the second
  layer the bias, the sums per graph and the division by the graph sizes — in the same order on the same operands, so each
  stretch leaves the reference's stage in its buffers once its operands hold the reference's stages. Each region leaves a
  dense layer of its operands (the region lemmas), which is the reference's `dot_general` stage (the layer lemmas of the
  reference). The boundaries are walked in order: entry of region 0, its exit, entry of region 1, its exit, entry of
  region 2, its exit. A buffer that a stretch does not write, and that is no array of a region, keeps its contents.
-/
import proofs.«158617_j85349590106379_1_alg».proof.Proof.KHost
import proofs.«158617_j85349590106379_1_alg».proof.Proof.RegionVal
import proofs.«158617_j85349590106379_1_alg».proof.Proof.RefLayers
import proofs.«158617_j85349590106379_1_alg».proof.Proof.LibRowCast

set_option maxRecDepth 16384

noncomputable section

namespace Cert.KernelIdeal.KVal

open Cert.KernelIdeal Cert.KernelIdeal.Gen Cert.ReferenceIdeal.ReadP
open Idealize.ShloMosaic Idealize.ShloMosaic.TcCoe Idealize.SL.Sem

variable (m : (ℓ : Loc nD τ sig) → Buf (Elt Ideal) ℓ) (ρ : Dev nD → PrngReg)

/-- A buffer that no operation of a stretch writes keeps its contents through the stretch: the stretch's operations are
    listed, and the buffer differs from each one's result buffer. -/
macro "not_written" : tactic => `(tactic| (
  refine StableHlo.after_of_forall_not_mem _ _ (List.forall_iff_forall_mem.mp ?_)
  simp only [hostOps0, hostOps0_1, hostOps0_2, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Exit of region 0 -/

theorem W4_main_v3 (c : Dev nD) : W4 m ρ c (Proc.devRef .tc main_v3) = val_main_v3 (F := Ideal) (m ((c : Thread nD τ).loc main_arg1)) :=
  (W4_of_ne m ρ c main_v3 (by decide)).trans (KHost.W3_main_v3 m ρ c)
theorem W4_main_v6 (c : Dev nD) : W4 m ρ c (Proc.devRef .tc main_v6) = val_main_v6 (F := Ideal) (m ((c : Thread nD τ).loc main_arg1)) :=
  (W4_of_ne m ρ c main_v6 (by decide)).trans (KHost.W3_main_v6 m ρ c)
theorem W4_main_v37 (c : Dev nD) : W4 m ρ c (Proc.devRef .tc main_v37) = val_main_v37 (F := Ideal) (m ((c : Thread nD τ).loc main_arg1)) :=
  (W4_of_ne m ρ c main_v37 (by decide)).trans (KHost.W3_main_v37 m ρ c)
theorem W4_main_arg2 (c : Dev nD) : W4 m ρ c (Proc.devRef .tc main_arg2) = m ((c : Thread nD τ).loc main_arg2) :=
  (W4_of_ne m ρ c main_arg2 (by decide)).trans (KHost.W3_main_arg2 m ρ c)
theorem W4_main_arg4 (c : Dev nD) : W4 m ρ c (Proc.devRef .tc main_arg4) = m ((c : Thread nD τ).loc main_arg4) :=
  (W4_of_ne m ρ c main_arg4 (by decide)).trans (KHost.W3_main_arg4 m ρ c)
theorem W4_main_arg5 (c : Dev nD) : W4 m ρ c (Proc.devRef .tc main_arg5) = m ((c : Thread nD τ).loc main_arg5) :=
  (W4_of_ne m ρ c main_arg5 (by decide)).trans (KHost.W3_main_arg5 m ρ c)
theorem W4_main_arg6 (c : Dev nD) : W4 m ρ c (Proc.devRef .tc main_arg6) = m ((c : Thread nD τ).loc main_arg6) :=
  (W4_of_ne m ρ c main_arg6 (by decide)).trans (KHost.W3_main_arg6 m ρ c)
theorem W4_main_arg7 (c : Dev nD) : W4 m ρ c (Proc.devRef .tc main_arg7) = m ((c : Thread nD τ).loc main_arg7) :=
  (W4_of_ne m ρ c main_arg7 (by decide)).trans (KHost.W3_main_arg7 m ρ c)
theorem W4_main_arg8 (c : Dev nD) : W4 m ρ c (Proc.devRef .tc main_arg8) = m ((c : Thread nD τ).loc main_arg8) :=
  (W4_of_ne m ρ c main_arg8 (by decide)).trans (KHost.W3_main_arg8 m ρ c)

/-- The first region leaves the product of the node features by the first weight matrix. -/
theorem W4_main_v38 (c : Dev nD) : W4 m ρ c (Proc.devRef .tc main_v38) = val_main_v38 (F := Ideal) (m ((c : Thread nD τ).loc main_arg0)) (m ((c : Thread nD τ).loc main_arg3)) := by
  refine (W4_arr m ρ c 2).trans ((RegionVal.region0 (V3 m ρ) c).trans ?_)
  dsimp only [V3]
  rw [KHost.W3_main_arg0 m ρ c, KHost.W3_main_arg3 m ρ c, Cert.ReferenceIdeal.RefLayers.v38_eq]

/-! ## Entry of region 1 -/

theorem W5_main_v3 (c : Dev nD) : W5 m ρ c (Proc.devRef .tc main_v3) = val_main_v3 (F := Ideal) (m ((c : Thread nD τ).loc main_arg1)) :=
  (by not_written : W5 m ρ c (Proc.devRef .tc main_v3) = W4 m ρ c (Proc.devRef .tc main_v3)).trans (W4_main_v3 m ρ c)
theorem W5_main_v6 (c : Dev nD) : W5 m ρ c (Proc.devRef .tc main_v6) = val_main_v6 (F := Ideal) (m ((c : Thread nD τ).loc main_arg1)) :=
  (by not_written : W5 m ρ c (Proc.devRef .tc main_v6) = W4 m ρ c (Proc.devRef .tc main_v6)).trans (W4_main_v6 m ρ c)
theorem W5_main_v37 (c : Dev nD) : W5 m ρ c (Proc.devRef .tc main_v37) = val_main_v37 (F := Ideal) (m ((c : Thread nD τ).loc main_arg1)) :=
  (by not_written : W5 m ρ c (Proc.devRef .tc main_v37) = W4 m ρ c (Proc.devRef .tc main_v37)).trans (W4_main_v37 m ρ c)
theorem W5_main_arg2 (c : Dev nD) : W5 m ρ c (Proc.devRef .tc main_arg2) = m ((c : Thread nD τ).loc main_arg2) :=
  (by not_written : W5 m ρ c (Proc.devRef .tc main_arg2) = W4 m ρ c (Proc.devRef .tc main_arg2)).trans (W4_main_arg2 m ρ c)
theorem W5_main_arg5 (c : Dev nD) : W5 m ρ c (Proc.devRef .tc main_arg5) = m ((c : Thread nD τ).loc main_arg5) :=
  (by not_written : W5 m ρ c (Proc.devRef .tc main_arg5) = W4 m ρ c (Proc.devRef .tc main_arg5)).trans (W4_main_arg5 m ρ c)
theorem W5_main_arg6 (c : Dev nD) : W5 m ρ c (Proc.devRef .tc main_arg6) = m ((c : Thread nD τ).loc main_arg6) :=
  (by not_written : W5 m ρ c (Proc.devRef .tc main_arg6) = W4 m ρ c (Proc.devRef .tc main_arg6)).trans (W4_main_arg6 m ρ c)
theorem W5_main_arg7 (c : Dev nD) : W5 m ρ c (Proc.devRef .tc main_arg7) = m ((c : Thread nD τ).loc main_arg7) :=
  (by not_written : W5 m ρ c (Proc.devRef .tc main_arg7) = W4 m ρ c (Proc.devRef .tc main_arg7)).trans (W4_main_arg7 m ρ c)
theorem W5_main_arg8 (c : Dev nD) : W5 m ρ c (Proc.devRef .tc main_arg8) = m ((c : Thread nD τ).loc main_arg8) :=
  (by not_written : W5 m ρ c (Proc.devRef .tc main_arg8) = W4 m ρ c (Proc.devRef .tc main_arg8)).trans (W4_main_arg8 m ρ c)

set_option maxHeartbeats 8000000 in
/-- The first aggregation over the edges. -/
theorem W5_main_v56 (c : Dev nD) : W5 m ρ c (Proc.devRef .tc main_v56) = val_main_v56 (F := Ideal) (m ((c : Thread nD τ).loc main_arg0)) (m ((c : Thread nD τ).loc main_arg1)) (m ((c : Thread nD τ).loc main_arg3)) := by
  dsimp only [W5, hostOps1]
  after_results_simp
  rw [W4_main_v38 m ρ c, W4_main_v37 m ρ c, W4_main_v3 m ρ c, W4_main_v6 m ρ c]
  rfl

/-- The first bias as a row. -/
theorem W5_main_v57 (c : Dev nD) : W5 m ρ c (Proc.devRef .tc main_v57) = val_main_v57 (F := Ideal) (m ((c : Thread nD τ).loc main_arg4)) := by
  dsimp only [W5, hostOps1]
  after_results_simp
  rw [W4_main_arg4 m ρ c]
  exact Cert.Lib.RowCast.shapeCast_row_eq_broadcastInDim (n := 128) _ _ _

/-! ## Exit of region 1 -/

theorem W6_main_v3 (c : Dev nD) : W6 m ρ c (Proc.devRef .tc main_v3) = val_main_v3 (F := Ideal) (m ((c : Thread nD τ).loc main_arg1)) :=
  (W6_of_ne m ρ c main_v3 (by decide)).trans (W5_main_v3 m ρ c)
theorem W6_main_v6 (c : Dev nD) : W6 m ρ c (Proc.devRef .tc main_v6) = val_main_v6 (F := Ideal) (m ((c : Thread nD τ).loc main_arg1)) :=
  (W6_of_ne m ρ c main_v6 (by decide)).trans (W5_main_v6 m ρ c)
theorem W6_main_v37 (c : Dev nD) : W6 m ρ c (Proc.devRef .tc main_v37) = val_main_v37 (F := Ideal) (m ((c : Thread nD τ).loc main_arg1)) :=
  (W6_of_ne m ρ c main_v37 (by decide)).trans (W5_main_v37 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W6_main_arg8 (c : Dev nD) : W6 m ρ c (Proc.devRef .tc main_arg8) = m ((c : Thread nD τ).loc main_arg8) :=
  (W6_of_ne m ρ c main_arg8 (by decide)).trans (W5_main_arg8 m ρ c)

/-- The second region leaves the second layer's product. -/
theorem W6_main_v58 (c : Dev nD) : W6 m ρ c (Proc.devRef .tc main_v58) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ((RegionVal.region1 (V5 m ρ) c).trans ?_)
  dsimp only [V5]
  rw [W5_main_v56 m ρ c, W5_main_v57 m ρ c, W5_main_arg5 m ρ c, Cert.ReferenceIdeal.RefLayers.v61_eq]

/-! ## Entry of region 2 -/

theorem W7_main_arg7 (c : Dev nD) : W7 m ρ c (Proc.devRef .tc main_arg7) = m ((c : Thread nD τ).loc main_arg7) :=
  (by not_written : W7 m ρ c (Proc.devRef .tc main_arg7) = W6 m ρ c (Proc.devRef .tc main_arg7)).trans (W6_main_arg7 m ρ c)

set_option maxHeartbeats 16000000 in
/-- The second aggregation, the second bias, the mean over every graph. -/
theorem W7_main_v91 (c : Dev nD) : W7 m ρ c (Proc.devRef .tc main_v91) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W7, hostOps2]
  after_results_simp
  rw [W6_main_v58 m ρ c, W6_main_v37 m ρ c, W6_main_v3 m ρ c, W6_main_v6 m ρ c, W6_main_arg6 m ρ c, W6_main_arg2 m ρ c]
  rfl

/-- The last bias as a row. -/
theorem W7_main_v92 (c : Dev nD) : W7 m ρ c (Proc.devRef .tc main_v92) = val_main_v96 (F := Ideal) (m ((c : Thread nD τ).loc main_arg8)) := by
  dsimp only [W7, hostOps2]
  after_results_simp
  rw [W6_main_arg8 m ρ c]
  exact Cert.Lib.RowCast.shapeCast_row_eq_broadcastInDim (n := 2) _ _ _

/-! ## Exit of region 2: the result -/

/-- The result array holds the reference's last stage of the argument arrays. -/
theorem W8_main_v93 (c : Dev nD) : W8 m ρ c (Proc.devRef .tc main_v93) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 3).trans ((RegionVal.region2 (V7 m ρ) c).trans ?_)
  dsimp only [V7]
  rw [W7_main_v91 m ρ c, W7_main_arg7 m ρ c, W7_main_v92 m ρ c, Cert.ReferenceIdeal.RefLayers.v98_eq]

end Cert.KernelIdeal.KVal

end
-- ==== Proof.RefRun.lean ====
/-
  The reference's run, read stage by stage.

  The reference's @main is a straight line of 128 host operations. It is cut into nine consecutive stretches; running
  the line from the launch contents is running the stretches one after the other. For each stretch, each buffer that a
  later stretch or the result reads is shown to hold the reference's stage of the argument arrays, given that the buffers
  the stretch itself reads hold theirs: the stretch's operations are read at that buffer, the leaves are rewritten to the
  stages they hold, and what is left is the stage's own definition. A buffer that no operation of a stretch writes keeps
  its contents through it — the argument arrays through every stretch. The last stretch leaves the last stage in the
  result buffer.
-/
import proofs.«158617_j85349590106379_1_alg».proof.Proof.ReadP

set_option maxRecDepth 16384

noncomputable section

namespace Cert.ReferenceIdeal.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## The stretches -/

abbrev opsA1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

abbrev opsA2 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    nullary main_c (constantI S_ 32 0#32),
    unary main_c main_v9 (broadcastInDim S1700000 ![] bcast_S_S1700000 : (⟨S_, .i32⟩ : BufTy).Contents (Elt F) → (⟨S1700000, .i32⟩ : BufTy).Contents (Elt F)),
    binary main_v6 main_v9 main_v10 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v11 (broadcastInDim S1700000 ![] bcast_S_S1700000 : (⟨S_, .i32⟩ : BufTy).Contents (Elt F) → (⟨S1700000, .i32⟩ : BufTy).Contents (Elt F)),
    binary main_v6 main_v11 main_v12 (addi : (⟨S1700000, .i32⟩ : BufTy).Contents (Elt F) → (⟨S1700000, .i32⟩ : BufTy).Contents (Elt F) → (⟨S1700000, .i32⟩ : BufTy).Contents (Elt F)),
    ternary main_v10 main_v12 main_v6 main_v13 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v13 main_v14 (broadcastInDim S1700000x1 ![0] bcast_S1700000_S1700000x1_0 : (⟨S1700000, .i32⟩ : BufTy).Contents (Elt F) → (⟨S1700000x1, .i32⟩ : BufTy).Contents (Elt F)),
    ternary main_v8 main_v14 main_v7 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v16 (broadcastInDim S100000 ![] bcast_S_S100000 : (⟨S_, .f32⟩ : BufTy).Contents (Elt F) → (⟨S100000, .f32⟩ : BufTy).Contents (Elt F)),
    binary main_v15 main_v16 main_v17 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v15 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (Host.rsqrt : (⟨S100000, .f32⟩ : BufTy).Contents (Elt F) → (⟨S100000, .f32⟩ : BufTy).Contents (Elt F)),
    nullary main_cst_4 (constant S_ .f32 0x00000000#32) ]

abbrev opsB : List (HloOp τ sig (Elt F)) :=
  [ TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v17) (TRef.of (T := ⟨S100000, .f32⟩) main_v20) (TRef.of (T := ⟨S100000, .f32⟩) main_call0_v1) (TRef.of (T := ⟨S100000, .f32⟩) main_v21) select ]

abbrev opsC : List (HloOp τ sig (Elt F)) :=
  [ nullary main_c_5 (constantI S_ 32 0#32),
    unary main_c_5 main_v22 (broadcastInDim S1700000 ![] bcast_S_S1700000 : (⟨S_, .i32⟩ : BufTy).Contents (Elt F) → (⟨S1700000, .i32⟩ : BufTy).Contents (Elt F)),
    binary main_v3 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v24 (broadcastInDim S1700000 ![] bcast_S_S1700000 : (⟨S_, .i32⟩ : BufTy).Contents (Elt F) → (⟨S1700000, .i32⟩ : BufTy).Contents (Elt F)),
    binary main_v3 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v3 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v21 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v28 main_v7 main_v29 (mulf : (⟨S1700000, .f32⟩ : BufTy).Contents (Elt F) → (⟨S1700000, .f32⟩ : BufTy).Contents (Elt F) → (⟨S1700000, .f32⟩ : BufTy).Contents (Elt F)),
    nullary main_c_7 (constantI S_ 32 0#32),
    unary main_c_7 main_v30 (broadcastInDim S1700000 ![] bcast_S_S1700000 : (⟨S_, .i32⟩ : BufTy).Contents (Elt F) → (⟨S1700000, .i32⟩ : BufTy).Contents (Elt F)),
    binary main_v6 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v32 (broadcastInDim S1700000 ![] bcast_S_S1700000 : (⟨S_, .i32⟩ : BufTy).Contents (Elt F) → (⟨S1700000, .i32⟩ : BufTy).Contents (Elt F)),
    binary main_v6 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v6 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v21 main_v35 main_v36 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v29 main_v36 main_v37 (mulf : (⟨S1700000, .f32⟩ : BufTy).Contents (Elt F) → (⟨S1700000, .f32⟩ : BufTy).Contents (Elt F) → (⟨S1700000, .f32⟩ : BufTy).Contents (Elt F)) ]

abbrev opsD : List (HloOp τ sig (Elt F)) :=
  [ binary main_arg0 main_arg3 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev opsE : List (HloOp τ sig (Elt F)) :=
  [ unary main_v37 main_v39 (broadcastInDim S1700000x1 ![0] bcast_S1700000_S1700000x1_0 : (⟨S1700000, .f32⟩ : BufTy).Contents (Elt F) → (⟨S1700000x1, .f32⟩ : BufTy).Contents (Elt F)),
    nullary main_c_9 (constantI S_ 32 0#32),
    unary main_c_9 main_v40 (broadcastInDim S1700000 ![] bcast_S_S1700000 : (⟨S_, .i32⟩ : BufTy).Contents (Elt F) → (⟨S1700000, .i32⟩ : BufTy).Contents (Elt F)),
    binary main_v3 main_v40 main_v41 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v42 (broadcastInDim S1700000 ![] bcast_S_S1700000 : (⟨S_, .i32⟩ : BufTy).Contents (Elt F) → (⟨S1700000, .i32⟩ : BufTy).Contents (Elt F)),
    binary main_v3 main_v42 main_v43 (addi : (⟨S1700000, .i32⟩ : BufTy).Contents (Elt F) → (⟨S1700000, .i32⟩ : BufTy).Contents (Elt F) → (⟨S1700000, .i32⟩ : BufTy).Contents (Elt F)),
    ternary main_v41 main_v43 main_v3 main_v44 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v44 main_v45 (broadcastInDim S1700000x1 ![0] bcast_S1700000_S1700000x1_0 : (⟨S1700000, .i32⟩ : BufTy).Contents (Elt F) → (⟨S1700000x1, .i32⟩ : BufTy).Contents (Elt F)),
    binary main_v38 main_v45 main_v46 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v39 main_v47 (broadcastInDim S1700000x128 ![0, 1] bcast_S1700000x1_S1700000x128_0_1 : (⟨S1700000x1, .f32⟩ : BufTy).Contents (Elt F) → (⟨S1700000x128, .f32⟩ : BufTy).Contents (Elt F)),
    binary main_v47 main_v46 main_v48 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v49 (broadcastInDim S100000x128 ![] bcast_S_S100000x128 : (⟨S_, .f32⟩ : BufTy).Contents (Elt F) → (⟨S100000x128, .f32⟩ : BufTy).Contents (Elt F)),
    nullary main_c_12 (constantI S_ 32 0#32),
    unary main_c_12 main_v50 (broadcastInDim S1700000 ![] bcast_S_S1700000 : (⟨S_, .i32⟩ : BufTy).Contents (Elt F) → (⟨S1700000, .i32⟩ : BufTy).Contents (Elt F)),
    binary main_v6 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v52 (broadcastInDim S1700000 ![] bcast_S_S1700000 : (⟨S_, .i32⟩ : BufTy).Contents (Elt F) → (⟨S1700000, .i32⟩ : BufTy).Contents (Elt F)),
    binary main_v6 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v6 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    ternary main_v49 main_v55 main_v48 main_v56 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

abbrev opsFs : List (HloOp τ sig (Elt F)) :=
  [ unary main_arg4 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v59) (TRef.of (T := ⟨S100000x128, .f32⟩) main_call1_v0) (TRef.of (T := ⟨S100000x128, .f32⟩) main_v60) maximumf,
    binary main_v60 main_arg5 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev opsG : List (HloOp τ sig (Elt F)) :=
  [ unary main_v37 main_v62 (broadcastInDim S1700000x1 ![0] bcast_S1700000_S1700000x1_0 : (⟨S1700000, .f32⟩ : BufTy).Contents (Elt F) → (⟨S1700000x1, .f32⟩ : BufTy).Contents (Elt F)),
    nullary main_c_14 (constantI S_ 32 0#32),
    unary main_c_14 main_v63 (broadcastInDim S1700000 ![] bcast_S_S1700000 : (⟨S_, .i32⟩ : BufTy).Contents (Elt F) → (⟨S1700000, .i32⟩ : BufTy).Contents (Elt F)),
    binary main_v3 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v65 (broadcastInDim S1700000 ![] bcast_S_S1700000 : (⟨S_, .i32⟩ : BufTy).Contents (Elt F) → (⟨S1700000, .i32⟩ : BufTy).Contents (Elt F)),
    binary main_v3 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v3 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v61 main_v68 main_v69 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v62 main_v70 (broadcastInDim S1700000x128 ![0, 1] bcast_S1700000x1_S1700000x128_0_1 : (⟨S1700000x1, .f32⟩ : BufTy).Contents (Elt F) → (⟨S1700000x128, .f32⟩ : BufTy).Contents (Elt F)),
    binary main_v70 main_v69 main_v71 (mulf : (⟨S1700000x128, .f32⟩ : BufTy).Contents (Elt F) → (⟨S1700000x128, .f32⟩ : BufTy).Contents (Elt F) → (⟨S1700000x128, .f32⟩ : BufTy).Contents (Elt F)),
    nullary main_cst_16 (constant S_ .f32 0x00000000#32),
    unary main_cst_16 main_v72 (broadcastInDim S100000x128 ![] bcast_S_S100000x128 : (⟨S_, .f32⟩ : BufTy).Contents (Elt F) → (⟨S100000x128, .f32⟩ : BufTy).Contents (Elt F)),
    nullary main_c_17 (constantI S_ 32 0#32),
    unary main_c_17 main_v73 (broadcastInDim S1700000 ![] bcast_S_S1700000 : (⟨S_, .i32⟩ : BufTy).Contents (Elt F) → (⟨S1700000, .i32⟩ : BufTy).Contents (Elt F)),
    binary main_v6 main_v73 main_v74 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v75 (broadcastInDim S1700000 ![] bcast_S_S1700000 : (⟨S_, .i32⟩ : BufTy).Contents (Elt F) → (⟨S1700000, .i32⟩ : BufTy).Contents (Elt F)),
    binary main_v6 main_v75 main_v76 (addi : (⟨S1700000, .i32⟩ : BufTy).Contents (Elt F) → (⟨S1700000, .i32⟩ : BufTy).Contents (Elt F) → (⟨S1700000, .i32⟩ : BufTy).Contents (Elt F)),
    ternary main_v74 main_v76 main_v6 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v77 main_v78 (broadcastInDim S1700000x1 ![0] bcast_S1700000_S1700000x1_0 : (⟨S1700000, .i32⟩ : BufTy).Contents (Elt F) → (⟨S1700000x1, .i32⟩ : BufTy).Contents (Elt F)),
    ternary main_v72 main_v78 main_v71 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    unary main_cst_19 main_v83 (broadcastInDim S1024x128 ![] bcast_S_S1024x128 : (⟨S_, .f32⟩ : BufTy).Contents (Elt F) → (⟨S1024x128, .f32⟩ : BufTy).Contents (Elt F)),
    unary main_arg2 main_v84 (broadcastInDim S100000x1 ![0] bcast_S100000_S100000x1_0 : (⟨S100000, .i32⟩ : BufTy).Contents (Elt F) → (⟨S100000x1, .i32⟩ : BufTy).Contents (Elt F)),
    ternary main_v83 main_v84 main_v82 main_v85 ((fun x i u => Host.scatterAdd scatter_S1024x128_S100000x1_S100000x128_1_0_0_1 x i u) : (⟨S1024x128, .f32⟩ : BufTy).Contents (Elt F) → (⟨S100000x1, .i32⟩ : BufTy).Contents (Elt F) → (⟨S100000x128, .f32⟩ : BufTy).Contents (Elt F) → (⟨S1024x128, .f32⟩ : BufTy).Contents (Elt F)),
    nullary main_cst_20 (constant S_ .f32 0x3F800000#32),
    unary main_cst_20 main_v86 (broadcastInDim S100000 ![] bcast_S_S100000 : (⟨S_, .f32⟩ : BufTy).Contents (Elt F) → (⟨S100000, .f32⟩ : BufTy).Contents (Elt F)),
    nullary main_cst_21 (constant S_ .f32 0x00000000#32),
    unary main_cst_21 main_v87 (broadcastInDim S1024 ![] bcast_S_S1024 : (⟨S_, .f32⟩ : BufTy).Contents (Elt F) → (⟨S1024, .f32⟩ : BufTy).Contents (Elt F)),
    unary main_arg2 main_v88 (broadcastInDim S100000x1 ![0] bcast_S100000_S100000x1_0 : (⟨S100000, .i32⟩ : BufTy).Contents (Elt F) → (⟨S100000x1, .i32⟩ : BufTy).Contents (Elt F)),
    ternary main_v87 main_v88 main_v86 main_v89 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    nullary main_cst_22 (constant S_ .f32 0x3F800000#32),
    unary main_cst_22 main_v90 (broadcastInDim S1024 ![] bcast_S_S1024 : (⟨S_, .f32⟩ : BufTy).Contents (Elt F) → (⟨S1024, .f32⟩ : BufTy).Contents (Elt F)),
    binary main_v89 main_v90 main_v91 (maximumf : (⟨S1024, .f32⟩ : BufTy).Contents (Elt F) → (⟨S1024, .f32⟩ : BufTy).Contents (Elt F) → (⟨S1024, .f32⟩ : BufTy).Contents (Elt F)),
    unary main_v91 main_v92 (broadcastInDim S1024x1 ![0] bcast_S1024_S1024x1_0 : (⟨S1024, .f32⟩ : BufTy).Contents (Elt F) → (⟨S1024x1, .f32⟩ : BufTy).Contents (Elt F)),
    unary main_v92 main_v93 (broadcastInDim S1024x128 ![0, 1] bcast_S1024x1_S1024x128_0_1 : (⟨S1024x1, .f32⟩ : BufTy).Contents (Elt F) → (⟨S1024x128, .f32⟩ : BufTy).Contents (Elt F)),
    binary main_v85 main_v93 main_v94 (Host.divf : (⟨S1024x128, .f32⟩ : BufTy).Contents (Elt F) → (⟨S1024x128, .f32⟩ : BufTy).Contents (Elt F) → (⟨S1024x128, .f32⟩ : BufTy).Contents (Elt F)) ]

abbrev opsH : List (HloOp τ sig (Elt F)) :=
  [ binary main_v94 main_arg7 main_v95 ((fun l r => Host.dotGeneral dot_S1024x128_S128x2_S1024x2_1_0_0_1_n_n none l r) : (⟨S1024x128, .f32⟩ : BufTy).Contents (Elt F) → (⟨S128x2, .f32⟩ : BufTy).Contents (Elt F) → (⟨S1024x2, .f32⟩ : BufTy).Contents (Elt F)),
    unary main_arg8 main_v96 (broadcastInDim S1x2 ![1] bcast_S2_S1x2_1 : (⟨S2, .f32⟩ : BufTy).Contents (Elt F) → (⟨S1x2, .f32⟩ : BufTy).Contents (Elt F)),
    unary main_v96 main_v97 (broadcastInDim S1024x2 ![0, 1] bcast_S1x2_S1024x2_0_1 : (⟨S1x2, .f32⟩ : BufTy).Contents (Elt F) → (⟨S1024x2, .f32⟩ : BufTy).Contents (Elt F)),
    binary main_v95 main_v97 main_v98 (addf : (⟨S1024x2, .f32⟩ : BufTy).Contents (Elt F) → (⟨S1024x2, .f32⟩ : BufTy).Contents (Elt F) → (⟨S1024x2, .f32⟩ : BufTy).Contents (Elt F)) ]

/-- The reference's operations, cut into nine consecutive stretches. -/
theorem ops_split : (ops : List (HloOp τ sig (Elt F))) = opsA1 ++ (opsA2 ++ (opsB ++ (opsC ++ (opsD ++ (opsE ++ (opsFs ++ (opsG ++ opsH))))))) := rfl

/-- Running two stretches in a row is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A buffer that no operation of a stretch writes keeps its contents through the stretch: the stretch's operations are
    listed, and the buffer differs from each one's result buffer. -/
macro "not_written" : tactic => `(tactic| (
  refine StableHlo.after_of_forall_not_mem _ _ (List.forall_iff_forall_mem.mp ?_)
  simp only [opsA1, opsA2, opsB, opsC, opsD, opsE, opsFs, opsG, opsH, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## A stretch leaves what it does not write -/

theorem keepA1_arg0 (V : Valuation τ sig (Elt F)) : after (opsA1 (F := F)) V (Proc.devRef .tc main_arg0) = V (Proc.devRef .tc main_arg0) := by not_written
theorem keepA2_arg0 (V : Valuation τ sig (Elt F)) : after (opsA2 (F := F)) V (Proc.devRef .tc main_arg0) = V (Proc.devRef .tc main_arg0) := by not_written
theorem keepB_arg0 (V : Valuation τ sig (Elt F)) : after (opsB (F := F)) V (Proc.devRef .tc main_arg0) = V (Proc.devRef .tc main_arg0) := by not_written
theorem keepC_arg0 (V : Valuation τ sig (Elt F)) : after (opsC (F := F)) V (Proc.devRef .tc main_arg0) = V (Proc.devRef .tc main_arg0) := by not_written
theorem keepD_arg0 (V : Valuation τ sig (Elt F)) : after (opsD (F := F)) V (Proc.devRef .tc main_arg0) = V (Proc.devRef .tc main_arg0) := by not_written
theorem keepE_arg0 (V : Valuation τ sig (Elt F)) : after (opsE (F := F)) V (Proc.devRef .tc main_arg0) = V (Proc.devRef .tc main_arg0) := by not_written
theorem keepFs_arg0 (V : Valuation τ sig (Elt F)) : after (opsFs (F := F)) V (Proc.devRef .tc main_arg0) = V (Proc.devRef .tc main_arg0) := by not_written
theorem keepG_arg0 (V : Valuation τ sig (Elt F)) : after (opsG (F := F)) V (Proc.devRef .tc main_arg0) = V (Proc.devRef .tc main_arg0) := by not_written
theorem keepH_arg0 (V : Valuation τ sig (Elt F)) : after (opsH (F := F)) V (Proc.devRef .tc main_arg0) = V (Proc.devRef .tc main_arg0) := by not_written
theorem keepA1_arg1 (V : Valuation τ sig (Elt F)) : after (opsA1 (F := F)) V (Proc.devRef .tc main_arg1) = V (Proc.devRef .tc main_arg1) := by not_written
theorem keepA2_arg1 (V : Valuation τ sig (Elt F)) : after (opsA2 (F := F)) V (Proc.devRef .tc main_arg1) = V (Proc.devRef .tc main_arg1) := by not_written
theorem keepB_arg1 (V : Valuation τ sig (Elt F)) : after (opsB (F := F)) V (Proc.devRef .tc main_arg1) = V (Proc.devRef .tc main_arg1) := by not_written
theorem keepC_arg1 (V : Valuation τ sig (Elt F)) : after (opsC (F := F)) V (Proc.devRef .tc main_arg1) = V (Proc.devRef .tc main_arg1) := by not_written
theorem keepD_arg1 (V : Valuation τ sig (Elt F)) : after (opsD (F := F)) V (Proc.devRef .tc main_arg1) = V (Proc.devRef .tc main_arg1) := by not_written
theorem keepE_arg1 (V : Valuation τ sig (Elt F)) : after (opsE (F := F)) V (Proc.devRef .tc main_arg1) = V (Proc.devRef .tc main_arg1) := by not_written
theorem keepFs_arg1 (V : Valuation τ sig (Elt F)) : after (opsFs (F := F)) V (Proc.devRef .tc main_arg1) = V (Proc.devRef .tc main_arg1) := by not_written
theorem keepG_arg1 (V : Valuation τ sig (Elt F)) : after (opsG (F := F)) V (Proc.devRef .tc main_arg1) = V (Proc.devRef .tc main_arg1) := by not_written
theorem keepH_arg1 (V : Valuation τ sig (Elt F)) : after (opsH (F := F)) V (Proc.devRef .tc main_arg1) = V (Proc.devRef .tc main_arg1) := by not_written
theorem keepA1_arg2 (V : Valuation τ sig (Elt F)) : after (opsA1 (F := F)) V (Proc.devRef .tc main_arg2) = V (Proc.devRef .tc main_arg2) := by not_written
theorem keepA2_arg2 (V : Valuation τ sig (Elt F)) : after (opsA2 (F := F)) V (Proc.devRef .tc main_arg2) = V (Proc.devRef .tc main_arg2) := by not_written
theorem keepB_arg2 (V : Valuation τ sig (Elt F)) : after (opsB (F := F)) V (Proc.devRef .tc main_arg2) = V (Proc.devRef .tc main_arg2) := by not_written
theorem keepC_arg2 (V : Valuation τ sig (Elt F)) : after (opsC (F := F)) V (Proc.devRef .tc main_arg2) = V (Proc.devRef .tc main_arg2) := by not_written
theorem keepD_arg2 (V : Valuation τ sig (Elt F)) : after (opsD (F := F)) V (Proc.devRef .tc main_arg2) = V (Proc.devRef .tc main_arg2) := by not_written
theorem keepE_arg2 (V : Valuation τ sig (Elt F)) : after (opsE (F := F)) V (Proc.devRef .tc main_arg2) = V (Proc.devRef .tc main_arg2) := by not_written
theorem keepFs_arg2 (V : Valuation τ sig (Elt F)) : after (opsFs (F := F)) V (Proc.devRef .tc main_arg2) = V (Proc.devRef .tc main_arg2) := by not_written
theorem keepG_arg2 (V : Valuation τ sig (Elt F)) : after (opsG (F := F)) V (Proc.devRef .tc main_arg2) = V (Proc.devRef .tc main_arg2) := by not_written
theorem keepH_arg2 (V : Valuation τ sig (Elt F)) : after (opsH (F := F)) V (Proc.devRef .tc main_arg2) = V (Proc.devRef .tc main_arg2) := by not_written
theorem keepA1_arg3 (V : Valuation τ sig (Elt F)) : after (opsA1 (F := F)) V (Proc.devRef .tc main_arg3) = V (Proc.devRef .tc main_arg3) := by not_written
theorem keepA2_arg3 (V : Valuation τ sig (Elt F)) : after (opsA2 (F := F)) V (Proc.devRef .tc main_arg3) = V (Proc.devRef .tc main_arg3) := by not_written
theorem keepB_arg3 (V : Valuation τ sig (Elt F)) : after (opsB (F := F)) V (Proc.devRef .tc main_arg3) = V (Proc.devRef .tc main_arg3) := by not_written
theorem keepC_arg3 (V : Valuation τ sig (Elt F)) : after (opsC (F := F)) V (Proc.devRef .tc main_arg3) = V (Proc.devRef .tc main_arg3) := by not_written
theorem keepD_arg3 (V : Valuation τ sig (Elt F)) : after (opsD (F := F)) V (Proc.devRef .tc main_arg3) = V (Proc.devRef .tc main_arg3) := by not_written
theorem keepE_arg3 (V : Valuation τ sig (Elt F)) : after (opsE (F := F)) V (Proc.devRef .tc main_arg3) = V (Proc.devRef .tc main_arg3) := by not_written
theorem keepFs_arg3 (V : Valuation τ sig (Elt F)) : after (opsFs (F := F)) V (Proc.devRef .tc main_arg3) = V (Proc.devRef .tc main_arg3) := by not_written
theorem keepG_arg3 (V : Valuation τ sig (Elt F)) : after (opsG (F := F)) V (Proc.devRef .tc main_arg3) = V (Proc.devRef .tc main_arg3) := by not_written
theorem keepH_arg3 (V : Valuation τ sig (Elt F)) : after (opsH (F := F)) V (Proc.devRef .tc main_arg3) = V (Proc.devRef .tc main_arg3) := by not_written
theorem keepA1_arg4 (V : Valuation τ sig (Elt F)) : after (opsA1 (F := F)) V (Proc.devRef .tc main_arg4) = V (Proc.devRef .tc main_arg4) := by not_written
theorem keepA2_arg4 (V : Valuation τ sig (Elt F)) : after (opsA2 (F := F)) V (Proc.devRef .tc main_arg4) = V (Proc.devRef .tc main_arg4) := by not_written
theorem keepB_arg4 (V : Valuation τ sig (Elt F)) : after (opsB (F := F)) V (Proc.devRef .tc main_arg4) = V (Proc.devRef .tc main_arg4) := by not_written
theorem keepC_arg4 (V : Valuation τ sig (Elt F)) : after (opsC (F := F)) V (Proc.devRef .tc main_arg4) = V (Proc.devRef .tc main_arg4) := by not_written
theorem keepD_arg4 (V : Valuation τ sig (Elt F)) : after (opsD (F := F)) V (Proc.devRef .tc main_arg4) = V (Proc.devRef .tc main_arg4) := by not_written
theorem keepE_arg4 (V : Valuation τ sig (Elt F)) : after (opsE (F := F)) V (Proc.devRef .tc main_arg4) = V (Proc.devRef .tc main_arg4) := by not_written
theorem keepFs_arg4 (V : Valuation τ sig (Elt F)) : after (opsFs (F := F)) V (Proc.devRef .tc main_arg4) = V (Proc.devRef .tc main_arg4) := by not_written
theorem keepG_arg4 (V : Valuation τ sig (Elt F)) : after (opsG (F := F)) V (Proc.devRef .tc main_arg4) = V (Proc.devRef .tc main_arg4) := by not_written
theorem keepH_arg4 (V : Valuation τ sig (Elt F)) : after (opsH (F := F)) V (Proc.devRef .tc main_arg4) = V (Proc.devRef .tc main_arg4) := by not_written
theorem keepA1_arg5 (V : Valuation τ sig (Elt F)) : after (opsA1 (F := F)) V (Proc.devRef .tc main_arg5) = V (Proc.devRef .tc main_arg5) := by not_written
theorem keepA2_arg5 (V : Valuation τ sig (Elt F)) : after (opsA2 (F := F)) V (Proc.devRef .tc main_arg5) = V (Proc.devRef .tc main_arg5) := by not_written
theorem keepB_arg5 (V : Valuation τ sig (Elt F)) : after (opsB (F := F)) V (Proc.devRef .tc main_arg5) = V (Proc.devRef .tc main_arg5) := by not_written
theorem keepC_arg5 (V : Valuation τ sig (Elt F)) : after (opsC (F := F)) V (Proc.devRef .tc main_arg5) = V (Proc.devRef .tc main_arg5) := by not_written
theorem keepD_arg5 (V : Valuation τ sig (Elt F)) : after (opsD (F := F)) V (Proc.devRef .tc main_arg5) = V (Proc.devRef .tc main_arg5) := by not_written
theorem keepE_arg5 (V : Valuation τ sig (Elt F)) : after (opsE (F := F)) V (Proc.devRef .tc main_arg5) = V (Proc.devRef .tc main_arg5) := by not_written
theorem keepFs_arg5 (V : Valuation τ sig (Elt F)) : after (opsFs (F := F)) V (Proc.devRef .tc main_arg5) = V (Proc.devRef .tc main_arg5) := by not_written
theorem keepG_arg5 (V : Valuation τ sig (Elt F)) : after (opsG (F := F)) V (Proc.devRef .tc main_arg5) = V (Proc.devRef .tc main_arg5) := by not_written
theorem keepH_arg5 (V : Valuation τ sig (Elt F)) : after (opsH (F := F)) V (Proc.devRef .tc main_arg5) = V (Proc.devRef .tc main_arg5) := by not_written
theorem keepA1_arg6 (V : Valuation τ sig (Elt F)) : after (opsA1 (F := F)) V (Proc.devRef .tc main_arg6) = V (Proc.devRef .tc main_arg6) := by not_written
theorem keepA2_arg6 (V : Valuation τ sig (Elt F)) : after (opsA2 (F := F)) V (Proc.devRef .tc main_arg6) = V (Proc.devRef .tc main_arg6) := by not_written
theorem keepB_arg6 (V : Valuation τ sig (Elt F)) : after (opsB (F := F)) V (Proc.devRef .tc main_arg6) = V (Proc.devRef .tc main_arg6) := by not_written
theorem keepC_arg6 (V : Valuation τ sig (Elt F)) : after (opsC (F := F)) V (Proc.devRef .tc main_arg6) = V (Proc.devRef .tc main_arg6) := by not_written
theorem keepD_arg6 (V : Valuation τ sig (Elt F)) : after (opsD (F := F)) V (Proc.devRef .tc main_arg6) = V (Proc.devRef .tc main_arg6) := by not_written
theorem keepE_arg6 (V : Valuation τ sig (Elt F)) : after (opsE (F := F)) V (Proc.devRef .tc main_arg6) = V (Proc.devRef .tc main_arg6) := by not_written
theorem keepFs_arg6 (V : Valuation τ sig (Elt F)) : after (opsFs (F := F)) V (Proc.devRef .tc main_arg6) = V (Proc.devRef .tc main_arg6) := by not_written
theorem keepG_arg6 (V : Valuation τ sig (Elt F)) : after (opsG (F := F)) V (Proc.devRef .tc main_arg6) = V (Proc.devRef .tc main_arg6) := by not_written
theorem keepH_arg6 (V : Valuation τ sig (Elt F)) : after (opsH (F := F)) V (Proc.devRef .tc main_arg6) = V (Proc.devRef .tc main_arg6) := by not_written
theorem keepA1_arg7 (V : Valuation τ sig (Elt F)) : after (opsA1 (F := F)) V (Proc.devRef .tc main_arg7) = V (Proc.devRef .tc main_arg7) := by not_written
theorem keepA2_arg7 (V : Valuation τ sig (Elt F)) : after (opsA2 (F := F)) V (Proc.devRef .tc main_arg7) = V (Proc.devRef .tc main_arg7) := by not_written
theorem keepB_arg7 (V : Valuation τ sig (Elt F)) : after (opsB (F := F)) V (Proc.devRef .tc main_arg7) = V (Proc.devRef .tc main_arg7) := by not_written
theorem keepC_arg7 (V : Valuation τ sig (Elt F)) : after (opsC (F := F)) V (Proc.devRef .tc main_arg7) = V (Proc.devRef .tc main_arg7) := by not_written
theorem keepD_arg7 (V : Valuation τ sig (Elt F)) : after (opsD (F := F)) V (Proc.devRef .tc main_arg7) = V (Proc.devRef .tc main_arg7) := by not_written
theorem keepE_arg7 (V : Valuation τ sig (Elt F)) : after (opsE (F := F)) V (Proc.devRef .tc main_arg7) = V (Proc.devRef .tc main_arg7) := by not_written
theorem keepFs_arg7 (V : Valuation τ sig (Elt F)) : after (opsFs (F := F)) V (Proc.devRef .tc main_arg7) = V (Proc.devRef .tc main_arg7) := by not_written
theorem keepG_arg7 (V : Valuation τ sig (Elt F)) : after (opsG (F := F)) V (Proc.devRef .tc main_arg7) = V (Proc.devRef .tc main_arg7) := by not_written
theorem keepH_arg7 (V : Valuation τ sig (Elt F)) : after (opsH (F := F)) V (Proc.devRef .tc main_arg7) = V (Proc.devRef .tc main_arg7) := by not_written
theorem keepA1_arg8 (V : Valuation τ sig (Elt F)) : after (opsA1 (F := F)) V (Proc.devRef .tc main_arg8) = V (Proc.devRef .tc main_arg8) := by not_written
theorem keepA2_arg8 (V : Valuation τ sig (Elt F)) : after (opsA2 (F := F)) V (Proc.devRef .tc main_arg8) = V (Proc.devRef .tc main_arg8) := by not_written
theorem keepB_arg8 (V : Valuation τ sig (Elt F)) : after (opsB (F := F)) V (Proc.devRef .tc main_arg8) = V (Proc.devRef .tc main_arg8) := by not_written
theorem keepC_arg8 (V : Valuation τ sig (Elt F)) : after (opsC (F := F)) V (Proc.devRef .tc main_arg8) = V (Proc.devRef .tc main_arg8) := by not_written
theorem keepD_arg8 (V : Valuation τ sig (Elt F)) : after (opsD (F := F)) V (Proc.devRef .tc main_arg8) = V (Proc.devRef .tc main_arg8) := by not_written
theorem keepE_arg8 (V : Valuation τ sig (Elt F)) : after (opsE (F := F)) V (Proc.devRef .tc main_arg8) = V (Proc.devRef .tc main_arg8) := by not_written
theorem keepFs_arg8 (V : Valuation τ sig (Elt F)) : after (opsFs (F := F)) V (Proc.devRef .tc main_arg8) = V (Proc.devRef .tc main_arg8) := by not_written
theorem keepG_arg8 (V : Valuation τ sig (Elt F)) : after (opsG (F := F)) V (Proc.devRef .tc main_arg8) = V (Proc.devRef .tc main_arg8) := by not_written
theorem keepH_arg8 (V : Valuation τ sig (Elt F)) : after (opsH (F := F)) V (Proc.devRef .tc main_arg8) = V (Proc.devRef .tc main_arg8) := by not_written
theorem keepA2_v3 (V : Valuation τ sig (Elt F)) : after (opsA2 (F := F)) V (Proc.devRef .tc main_v3) = V (Proc.devRef .tc main_v3) := by not_written
theorem keepA2_v6 (V : Valuation τ sig (Elt F)) : after (opsA2 (F := F)) V (Proc.devRef .tc main_v6) = V (Proc.devRef .tc main_v6) := by not_written
theorem keepB_v3 (V : Valuation τ sig (Elt F)) : after (opsB (F := F)) V (Proc.devRef .tc main_v3) = V (Proc.devRef .tc main_v3) := by not_written
theorem keepB_v6 (V : Valuation τ sig (Elt F)) : after (opsB (F := F)) V (Proc.devRef .tc main_v6) = V (Proc.devRef .tc main_v6) := by not_written
theorem keepC_v3 (V : Valuation τ sig (Elt F)) : after (opsC (F := F)) V (Proc.devRef .tc main_v3) = V (Proc.devRef .tc main_v3) := by not_written
theorem keepC_v6 (V : Valuation τ sig (Elt F)) : after (opsC (F := F)) V (Proc.devRef .tc main_v6) = V (Proc.devRef .tc main_v6) := by not_written
theorem keepD_v3 (V : Valuation τ sig (Elt F)) : after (opsD (F := F)) V (Proc.devRef .tc main_v3) = V (Proc.devRef .tc main_v3) := by not_written
theorem keepD_v6 (V : Valuation τ sig (Elt F)) : after (opsD (F := F)) V (Proc.devRef .tc main_v6) = V (Proc.devRef .tc main_v6) := by not_written
theorem keepE_v3 (V : Valuation τ sig (Elt F)) : after (opsE (F := F)) V (Proc.devRef .tc main_v3) = V (Proc.devRef .tc main_v3) := by not_written
theorem keepE_v6 (V : Valuation τ sig (Elt F)) : after (opsE (F := F)) V (Proc.devRef .tc main_v6) = V (Proc.devRef .tc main_v6) := by not_written
theorem keepFs_v3 (V : Valuation τ sig (Elt F)) : after (opsFs (F := F)) V (Proc.devRef .tc main_v3) = V (Proc.devRef .tc main_v3) := by not_written
theorem keepFs_v6 (V : Valuation τ sig (Elt F)) : after (opsFs (F := F)) V (Proc.devRef .tc main_v6) = V (Proc.devRef .tc main_v6) := by not_written
theorem keepB_v7 (V : Valuation τ sig (Elt F)) : after (opsB (F := F)) V (Proc.devRef .tc main_v7) = V (Proc.devRef .tc main_v7) := by not_written
theorem keepD_v37 (V : Valuation τ sig (Elt F)) : after (opsD (F := F)) V (Proc.devRef .tc main_v37) = V (Proc.devRef .tc main_v37) := by not_written
theorem keepE_v37 (V : Valuation τ sig (Elt F)) : after (opsE (F := F)) V (Proc.devRef .tc main_v37) = V (Proc.devRef .tc main_v37) := by not_written
theorem keepFs_v37 (V : Valuation τ sig (Elt F)) : after (opsFs (F := F)) V (Proc.devRef .tc main_v37) = V (Proc.devRef .tc main_v37) := by not_written

/-! ## What each stretch leaves, given what it finds -/

set_option maxHeartbeats 16000000 in
theorem A1_v3 (V : Valuation τ sig (Elt F)) (x1 : (⟨S2x1600000, .i32⟩ : BufTy).Contents (Elt F))
    (h1 : V (Proc.devRef .tc main_arg1) = x1) :
    after (opsA1 (F := F)) V (Proc.devRef .tc main_v3) = val_main_v3 (F := F) x1 := by
  dsimp only [opsA1]
  after_results
  rw [h1]
  rfl

set_option maxHeartbeats 16000000 in
theorem A1_v6 (V : Valuation τ sig (Elt F)) (x1 : (⟨S2x1600000, .i32⟩ : BufTy).Contents (Elt F))
    (h1 : V (Proc.devRef .tc main_arg1) = x1) :
    after (opsA1 (F := F)) V (Proc.devRef .tc main_v6) = val_main_v6 (F := F) x1 := by
  dsimp only [opsA1]
  after_results
  rw [h1]
  rfl

set_option maxHeartbeats 16000000 in
theorem A2_v7 (V : Valuation τ sig (Elt F))
     :
    after (opsA2 (F := F)) V (Proc.devRef .tc main_v7) = val_main_v7 (F := F) := by
  dsimp only [opsA2]
  after_results_simp
  rfl

set_option maxHeartbeats 16000000 in
theorem A2_v17 (V : Valuation τ sig (Elt F)) (x1 : (⟨S2x1600000, .i32⟩ : BufTy).Contents (Elt F))
    (h6 : V (Proc.devRef .tc main_v6) = val_main_v6 (F := F) x1) :
    after (opsA2 (F := F)) V (Proc.devRef .tc main_v17) = val_main_v17 (F := F) x1 := by
  dsimp only [opsA2]
  after_results_simp
  rw [h6]
  rfl

set_option maxHeartbeats 16000000 in
theorem A2_v20 (V : Valuation τ sig (Elt F)) (x1 : (⟨S2x1600000, .i32⟩ : BufTy).Contents (Elt F))
    (h6 : V (Proc.devRef .tc main_v6) = val_main_v6 (F := F) x1) :
    after (opsA2 (F := F)) V (Proc.devRef .tc main_v20) = val_main_v20 (F := F) x1 := by
  dsimp only [opsA2]
  after_results_simp
  rw [h6]
  rfl

set_option maxHeartbeats 16000000 in
theorem A2_cst_4 (V : Valuation τ sig (Elt F))
     :
    after (opsA2 (F := F)) V (Proc.devRef .tc main_cst_4) = val_main_cst_4 (F := F) := by
  dsimp only [opsA2]
  after_results_simp
  rfl

set_option maxHeartbeats 16000000 in
theorem B_v21 (V : Valuation τ sig (Elt F)) (x1 : (⟨S2x1600000, .i32⟩ : BufTy).Contents (Elt F))
    (h17 : V (Proc.devRef .tc main_v17) = val_main_v17 (F := F) x1) (h20 : V (Proc.devRef .tc main_v20) = val_main_v20 (F := F) x1) (hc4 : V (Proc.devRef .tc main_cst_4) = val_main_cst_4 (F := F)) :
    after (opsB (F := F)) V (Proc.devRef .tc main_v21) = val_main_v21 (F := F) x1 := by
  dsimp only [opsB]
  after_results_simp
  rw [h17, h20, hc4]
  rfl

set_option maxHeartbeats 16000000 in
theorem C_v37 (V : Valuation τ sig (Elt F)) (x1 : (⟨S2x1600000, .i32⟩ : BufTy).Contents (Elt F))
    (h3 : V (Proc.devRef .tc main_v3) = val_main_v3 (F := F) x1) (h6 : V (Proc.devRef .tc main_v6) = val_main_v6 (F := F) x1) (h21 : V (Proc.devRef .tc main_v21) = val_main_v21 (F := F) x1) (h7 : V (Proc.devRef .tc main_v7) = val_main_v7 (F := F)) :
    after (opsC (F := F)) V (Proc.devRef .tc main_v37) = val_main_v37 (F := F) x1 := by
  dsimp only [opsC]
  after_results_simp
  rw [h3, h6, h21, h7]
  rfl

set_option maxHeartbeats 16000000 in
theorem D_v38 (V : Valuation τ sig (Elt F)) (x0 : (⟨S100000x128, .f32⟩ : BufTy).Contents (Elt F)) (x3 : (⟨S128x128, .f32⟩ : BufTy).Contents (Elt F))
    (ha0 : V (Proc.devRef .tc main_arg0) = x0) (ha3 : V (Proc.devRef .tc main_arg3) = x3) :
    after (opsD (F := F)) V (Proc.devRef .tc main_v38) = val_main_v38 (F := F) x0 x3 := by
  dsimp only [opsD]
  after_results_simp
  rw [ha0, ha3]
  rfl

set_option maxHeartbeats 16000000 in
theorem E_v56 (V : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F))
    (h38 : V (Proc.devRef .tc main_v38) = val_main_v38 (F := F) x0 x3) (h37 : V (Proc.devRef .tc main_v37) = val_main_v37 (F := F) x1) (h3 : V (Proc.devRef .tc main_v3) = val_main_v3 (F := F) x1) (h6 : V (Proc.devRef .tc main_v6) = val_main_v6 (F := F) x1) :
    after (opsE (F := F)) V (Proc.devRef .tc main_v56) = val_main_v56 (F := F) x0 x1 x3 := by
  dsimp only [opsE]
  after_results_simp
  rw [h38, h37, h3, h6]
  rfl

set_option maxHeartbeats 16000000 in
theorem Fs_v61 (V : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F))
    (h56 : V (Proc.devRef .tc main_v56) = val_main_v56 (F := F) x0 x1 x3) (ha4 : V (Proc.devRef .tc main_arg4) = x4) (ha5 : V (Proc.devRef .tc main_arg5) = x5) :
    after (opsFs (F := F)) V (Proc.devRef .tc main_v61) = val_main_v61 (F := F) x0 x1 x3 x4 x5 := by
  dsimp only [opsFs]
  after_results_simp
  rw [h56, ha4, ha5]
  rfl

set_option maxHeartbeats 16000000 in
theorem G_v94 (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h61 : V (Proc.devRef .tc main_v61) = val_main_v61 (F := F) x0 x1 x3 x4 x5) (h37 : V (Proc.devRef .tc main_v37) = val_main_v37 (F := F) x1) (h3 : V (Proc.devRef .tc main_v3) = val_main_v3 (F := F) x1) (h6 : V (Proc.devRef .tc main_v6) = val_main_v6 (F := F) x1) (ha6 : V (Proc.devRef .tc main_arg6) = x6) (ha2 : V (Proc.devRef .tc main_arg2) = x2) :
    after (opsG (F := F)) V (Proc.devRef .tc main_v94) = val_main_v94 (F := F) x0 x1 x2 x3 x4 x5 x6 := by
  dsimp only [opsG]
  after_results_simp
  rw [h61, h37, h3, h6, ha6, ha2]
  rfl

set_option maxHeartbeats 16000000 in
theorem H_v98 (V : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x2, .f32⟩ : BufTy).Contents (Elt F)) (x8 : (⟨S2, .f32⟩ : BufTy).Contents (Elt F))
    (h94 : V (Proc.devRef .tc main_v94) = val_main_v94 (F := F) x0 x1 x2 x3 x4 x5 x6) (ha7 : V (Proc.devRef .tc main_arg7) = x7) (ha8 : V (Proc.devRef .tc main_arg8) = x8) :
    after (opsH (F := F)) V (Proc.devRef .tc main_v98) = val_main_v98 (F := F) x0 x1 x2 x3 x4 x5 x6 x7 x8 := by
  dsimp only [opsH]
  after_results_simp
  rw [h94, ha7, ha8]
  rfl

/-! ## The stretches in a row, from the launch contents -/

section Levels

variable (m : (ℓ : Loc nD τ sig) → Buf (Elt F) ℓ) (c : Dev nD)

/-- The buffers after the stretch A1 and everything before it. -/
def lvA1 : Valuation τ sig (Elt F) := after opsA1 (launchContents m c)
/-- The buffers after the stretch A2 and everything before it. -/
def lvA2 : Valuation τ sig (Elt F) := after opsA2 (lvA1 m c)
/-- The buffers after the stretch B and everything before it. -/
def lvB : Valuation τ sig (Elt F) := after opsB (lvA2 m c)
/-- The buffers after the stretch C and everything before it. -/
def lvC : Valuation τ sig (Elt F) := after opsC (lvB m c)
/-- The buffers after the stretch D and everything before it. -/
def lvD : Valuation τ sig (Elt F) := after opsD (lvC m c)
/-- The buffers after the stretch E and everything before it. -/
def lvE : Valuation τ sig (Elt F) := after opsE (lvD m c)
/-- The buffers after the stretch Fs and everything before it. -/
def lvFs : Valuation τ sig (Elt F) := after opsFs (lvE m c)
/-- The buffers after the stretch G and everything before it. -/
def lvG : Valuation τ sig (Elt F) := after opsG (lvFs m c)
/-- The buffers after the stretch H and everything before it. -/
def lvH : Valuation τ sig (Elt F) := after opsH (lvG m c)

theorem lvA1_arg0 : lvA1 m c (Proc.devRef .tc main_arg0) = m ((c.tc : Thread nD τ).loc main_arg0) := (keepA1_arg0 _).trans (rfl : launchContents m c (Proc.devRef .tc main_arg0) = m ((c.tc : Thread nD τ).loc main_arg0))
theorem lvA2_arg0 : lvA2 m c (Proc.devRef .tc main_arg0) = m ((c.tc : Thread nD τ).loc main_arg0) := (keepA2_arg0 _).trans (lvA1_arg0 m c)
theorem lvB_arg0 : lvB m c (Proc.devRef .tc main_arg0) = m ((c.tc : Thread nD τ).loc main_arg0) := (keepB_arg0 _).trans (lvA2_arg0 m c)
theorem lvC_arg0 : lvC m c (Proc.devRef .tc main_arg0) = m ((c.tc : Thread nD τ).loc main_arg0) := (keepC_arg0 _).trans (lvB_arg0 m c)
theorem lvD_arg0 : lvD m c (Proc.devRef .tc main_arg0) = m ((c.tc : Thread nD τ).loc main_arg0) := (keepD_arg0 _).trans (lvC_arg0 m c)
theorem lvE_arg0 : lvE m c (Proc.devRef .tc main_arg0) = m ((c.tc : Thread nD τ).loc main_arg0) := (keepE_arg0 _).trans (lvD_arg0 m c)
theorem lvFs_arg0 : lvFs m c (Proc.devRef .tc main_arg0) = m ((c.tc : Thread nD τ).loc main_arg0) := (keepFs_arg0 _).trans (lvE_arg0 m c)
theorem lvG_arg0 : lvG m c (Proc.devRef .tc main_arg0) = m ((c.tc : Thread nD τ).loc main_arg0) := (keepG_arg0 _).trans (lvFs_arg0 m c)
theorem lvH_arg0 : lvH m c (Proc.devRef .tc main_arg0) = m ((c.tc : Thread nD τ).loc main_arg0) := (keepH_arg0 _).trans (lvG_arg0 m c)
theorem lvA1_arg1 : lvA1 m c (Proc.devRef .tc main_arg1) = m ((c.tc : Thread nD τ).loc main_arg1) := (keepA1_arg1 _).trans (rfl : launchContents m c (Proc.devRef .tc main_arg1) = m ((c.tc : Thread nD τ).loc main_arg1))
theorem lvA2_arg1 : lvA2 m c (Proc.devRef .tc main_arg1) = m ((c.tc : Thread nD τ).loc main_arg1) := (keepA2_arg1 _).trans (lvA1_arg1 m c)
theorem lvB_arg1 : lvB m c (Proc.devRef .tc main_arg1) = m ((c.tc : Thread nD τ).loc main_arg1) := (keepB_arg1 _).trans (lvA2_arg1 m c)
theorem lvC_arg1 : lvC m c (Proc.devRef .tc main_arg1) = m ((c.tc : Thread nD τ).loc main_arg1) := (keepC_arg1 _).trans (lvB_arg1 m c)
theorem lvD_arg1 : lvD m c (Proc.devRef .tc main_arg1) = m ((c.tc : Thread nD τ).loc main_arg1) := (keepD_arg1 _).trans (lvC_arg1 m c)
theorem lvE_arg1 : lvE m c (Proc.devRef .tc main_arg1) = m ((c.tc : Thread nD τ).loc main_arg1) := (keepE_arg1 _).trans (lvD_arg1 m c)
theorem lvFs_arg1 : lvFs m c (Proc.devRef .tc main_arg1) = m ((c.tc : Thread nD τ).loc main_arg1) := (keepFs_arg1 _).trans (lvE_arg1 m c)
theorem lvG_arg1 : lvG m c (Proc.devRef .tc main_arg1) = m ((c.tc : Thread nD τ).loc main_arg1) := (keepG_arg1 _).trans (lvFs_arg1 m c)
theorem lvH_arg1 : lvH m c (Proc.devRef .tc main_arg1) = m ((c.tc : Thread nD τ).loc main_arg1) := (keepH_arg1 _).trans (lvG_arg1 m c)
theorem lvA1_arg2 : lvA1 m c (Proc.devRef .tc main_arg2) = m ((c.tc : Thread nD τ).loc main_arg2) := (keepA1_arg2 _).trans (rfl : launchContents m c (Proc.devRef .tc main_arg2) = m ((c.tc : Thread nD τ).loc main_arg2))
theorem lvA2_arg2 : lvA2 m c (Proc.devRef .tc main_arg2) = m ((c.tc : Thread nD τ).loc main_arg2) := (keepA2_arg2 _).trans (lvA1_arg2 m c)
theorem lvB_arg2 : lvB m c (Proc.devRef .tc main_arg2) = m ((c.tc : Thread nD τ).loc main_arg2) := (keepB_arg2 _).trans (lvA2_arg2 m c)
theorem lvC_arg2 : lvC m c (Proc.devRef .tc main_arg2) = m ((c.tc : Thread nD τ).loc main_arg2) := (keepC_arg2 _).trans (lvB_arg2 m c)
theorem lvD_arg2 : lvD m c (Proc.devRef .tc main_arg2) = m ((c.tc : Thread nD τ).loc main_arg2) := (keepD_arg2 _).trans (lvC_arg2 m c)
theorem lvE_arg2 : lvE m c (Proc.devRef .tc main_arg2) = m ((c.tc : Thread nD τ).loc main_arg2) := (keepE_arg2 _).trans (lvD_arg2 m c)
theorem lvFs_arg2 : lvFs m c (Proc.devRef .tc main_arg2) = m ((c.tc : Thread nD τ).loc main_arg2) := (keepFs_arg2 _).trans (lvE_arg2 m c)
theorem lvG_arg2 : lvG m c (Proc.devRef .tc main_arg2) = m ((c.tc : Thread nD τ).loc main_arg2) := (keepG_arg2 _).trans (lvFs_arg2 m c)
theorem lvH_arg2 : lvH m c (Proc.devRef .tc main_arg2) = m ((c.tc : Thread nD τ).loc main_arg2) := (keepH_arg2 _).trans (lvG_arg2 m c)
theorem lvA1_arg3 : lvA1 m c (Proc.devRef .tc main_arg3) = m ((c.tc : Thread nD τ).loc main_arg3) := (keepA1_arg3 _).trans (rfl : launchContents m c (Proc.devRef .tc main_arg3) = m ((c.tc : Thread nD τ).loc main_arg3))
theorem lvA2_arg3 : lvA2 m c (Proc.devRef .tc main_arg3) = m ((c.tc : Thread nD τ).loc main_arg3) := (keepA2_arg3 _).trans (lvA1_arg3 m c)
theorem lvB_arg3 : lvB m c (Proc.devRef .tc main_arg3) = m ((c.tc : Thread nD τ).loc main_arg3) := (keepB_arg3 _).trans (lvA2_arg3 m c)
theorem lvC_arg3 : lvC m c (Proc.devRef .tc main_arg3) = m ((c.tc : Thread nD τ).loc main_arg3) := (keepC_arg3 _).trans (lvB_arg3 m c)
theorem lvD_arg3 : lvD m c (Proc.devRef .tc main_arg3) = m ((c.tc : Thread nD τ).loc main_arg3) := (keepD_arg3 _).trans (lvC_arg3 m c)
theorem lvE_arg3 : lvE m c (Proc.devRef .tc main_arg3) = m ((c.tc : Thread nD τ).loc main_arg3) := (keepE_arg3 _).trans (lvD_arg3 m c)
theorem lvFs_arg3 : lvFs m c (Proc.devRef .tc main_arg3) = m ((c.tc : Thread nD τ).loc main_arg3) := (keepFs_arg3 _).trans (lvE_arg3 m c)
theorem lvG_arg3 : lvG m c (Proc.devRef .tc main_arg3) = m ((c.tc : Thread nD τ).loc main_arg3) := (keepG_arg3 _).trans (lvFs_arg3 m c)
theorem lvH_arg3 : lvH m c (Proc.devRef .tc main_arg3) = m ((c.tc : Thread nD τ).loc main_arg3) := (keepH_arg3 _).trans (lvG_arg3 m c)
theorem lvA1_arg4 : lvA1 m c (Proc.devRef .tc main_arg4) = m ((c.tc : Thread nD τ).loc main_arg4) := (keepA1_arg4 _).trans (rfl : launchContents m c (Proc.devRef .tc main_arg4) = m ((c.tc : Thread nD τ).loc main_arg4))
theorem lvA2_arg4 : lvA2 m c (Proc.devRef .tc main_arg4) = m ((c.tc : Thread nD τ).loc main_arg4) := (keepA2_arg4 _).trans (lvA1_arg4 m c)
theorem lvB_arg4 : lvB m c (Proc.devRef .tc main_arg4) = m ((c.tc : Thread nD τ).loc main_arg4) := (keepB_arg4 _).trans (lvA2_arg4 m c)
theorem lvC_arg4 : lvC m c (Proc.devRef .tc main_arg4) = m ((c.tc : Thread nD τ).loc main_arg4) := (keepC_arg4 _).trans (lvB_arg4 m c)
theorem lvD_arg4 : lvD m c (Proc.devRef .tc main_arg4) = m ((c.tc : Thread nD τ).loc main_arg4) := (keepD_arg4 _).trans (lvC_arg4 m c)
theorem lvE_arg4 : lvE m c (Proc.devRef .tc main_arg4) = m ((c.tc : Thread nD τ).loc main_arg4) := (keepE_arg4 _).trans (lvD_arg4 m c)
theorem lvFs_arg4 : lvFs m c (Proc.devRef .tc main_arg4) = m ((c.tc : Thread nD τ).loc main_arg4) := (keepFs_arg4 _).trans (lvE_arg4 m c)
theorem lvG_arg4 : lvG m c (Proc.devRef .tc main_arg4) = m ((c.tc : Thread nD τ).loc main_arg4) := (keepG_arg4 _).trans (lvFs_arg4 m c)
theorem lvH_arg4 : lvH m c (Proc.devRef .tc main_arg4) = m ((c.tc : Thread nD τ).loc main_arg4) := (keepH_arg4 _).trans (lvG_arg4 m c)
theorem lvA1_arg5 : lvA1 m c (Proc.devRef .tc main_arg5) = m ((c.tc : Thread nD τ).loc main_arg5) := (keepA1_arg5 _).trans (rfl : launchContents m c (Proc.devRef .tc main_arg5) = m ((c.tc : Thread nD τ).loc main_arg5))
theorem lvA2_arg5 : lvA2 m c (Proc.devRef .tc main_arg5) = m ((c.tc : Thread nD τ).loc main_arg5) := (keepA2_arg5 _).trans (lvA1_arg5 m c)
theorem lvB_arg5 : lvB m c (Proc.devRef .tc main_arg5) = m ((c.tc : Thread nD τ).loc main_arg5) := (keepB_arg5 _).trans (lvA2_arg5 m c)
theorem lvC_arg5 : lvC m c (Proc.devRef .tc main_arg5) = m ((c.tc : Thread nD τ).loc main_arg5) := (keepC_arg5 _).trans (lvB_arg5 m c)
theorem lvD_arg5 : lvD m c (Proc.devRef .tc main_arg5) = m ((c.tc : Thread nD τ).loc main_arg5) := (keepD_arg5 _).trans (lvC_arg5 m c)
theorem lvE_arg5 : lvE m c (Proc.devRef .tc main_arg5) = m ((c.tc : Thread nD τ).loc main_arg5) := (keepE_arg5 _).trans (lvD_arg5 m c)
theorem lvFs_arg5 : lvFs m c (Proc.devRef .tc main_arg5) = m ((c.tc : Thread nD τ).loc main_arg5) := (keepFs_arg5 _).trans (lvE_arg5 m c)
theorem lvG_arg5 : lvG m c (Proc.devRef .tc main_arg5) = m ((c.tc : Thread nD τ).loc main_arg5) := (keepG_arg5 _).trans (lvFs_arg5 m c)
theorem lvH_arg5 : lvH m c (Proc.devRef .tc main_arg5) = m ((c.tc : Thread nD τ).loc main_arg5) := (keepH_arg5 _).trans (lvG_arg5 m c)
theorem lvA1_arg6 : lvA1 m c (Proc.devRef .tc main_arg6) = m ((c.tc : Thread nD τ).loc main_arg6) := (keepA1_arg6 _).trans (rfl : launchContents m c (Proc.devRef .tc main_arg6) = m ((c.tc : Thread nD τ).loc main_arg6))
theorem lvA2_arg6 : lvA2 m c (Proc.devRef .tc main_arg6) = m ((c.tc : Thread nD τ).loc main_arg6) := (keepA2_arg6 _).trans (lvA1_arg6 m c)
theorem lvB_arg6 : lvB m c (Proc.devRef .tc main_arg6) = m ((c.tc : Thread nD τ).loc main_arg6) := (keepB_arg6 _).trans (lvA2_arg6 m c)
theorem lvC_arg6 : lvC m c (Proc.devRef .tc main_arg6) = m ((c.tc : Thread nD τ).loc main_arg6) := (keepC_arg6 _).trans (lvB_arg6 m c)
theorem lvD_arg6 : lvD m c (Proc.devRef .tc main_arg6) = m ((c.tc : Thread nD τ).loc main_arg6) := (keepD_arg6 _).trans (lvC_arg6 m c)
theorem lvE_arg6 : lvE m c (Proc.devRef .tc main_arg6) = m ((c.tc : Thread nD τ).loc main_arg6) := (keepE_arg6 _).trans (lvD_arg6 m c)
theorem lvFs_arg6 : lvFs m c (Proc.devRef .tc main_arg6) = m ((c.tc : Thread nD τ).loc main_arg6) := (keepFs_arg6 _).trans (lvE_arg6 m c)
theorem lvG_arg6 : lvG m c (Proc.devRef .tc main_arg6) = m ((c.tc : Thread nD τ).loc main_arg6) := (keepG_arg6 _).trans (lvFs_arg6 m c)
theorem lvH_arg6 : lvH m c (Proc.devRef .tc main_arg6) = m ((c.tc : Thread nD τ).loc main_arg6) := (keepH_arg6 _).trans (lvG_arg6 m c)
theorem lvA1_arg7 : lvA1 m c (Proc.devRef .tc main_arg7) = m ((c.tc : Thread nD τ).loc main_arg7) := (keepA1_arg7 _).trans (rfl : launchContents m c (Proc.devRef .tc main_arg7) = m ((c.tc : Thread nD τ).loc main_arg7))
theorem lvA2_arg7 : lvA2 m c (Proc.devRef .tc main_arg7) = m ((c.tc : Thread nD τ).loc main_arg7) := (keepA2_arg7 _).trans (lvA1_arg7 m c)
theorem lvB_arg7 : lvB m c (Proc.devRef .tc main_arg7) = m ((c.tc : Thread nD τ).loc main_arg7) := (keepB_arg7 _).trans (lvA2_arg7 m c)
theorem lvC_arg7 : lvC m c (Proc.devRef .tc main_arg7) = m ((c.tc : Thread nD τ).loc main_arg7) := (keepC_arg7 _).trans (lvB_arg7 m c)
theorem lvD_arg7 : lvD m c (Proc.devRef .tc main_arg7) = m ((c.tc : Thread nD τ).loc main_arg7) := (keepD_arg7 _).trans (lvC_arg7 m c)
theorem lvE_arg7 : lvE m c (Proc.devRef .tc main_arg7) = m ((c.tc : Thread nD τ).loc main_arg7) := (keepE_arg7 _).trans (lvD_arg7 m c)
theorem lvFs_arg7 : lvFs m c (Proc.devRef .tc main_arg7) = m ((c.tc : Thread nD τ).loc main_arg7) := (keepFs_arg7 _).trans (lvE_arg7 m c)
theorem lvG_arg7 : lvG m c (Proc.devRef .tc main_arg7) = m ((c.tc : Thread nD τ).loc main_arg7) := (keepG_arg7 _).trans (lvFs_arg7 m c)
theorem lvH_arg7 : lvH m c (Proc.devRef .tc main_arg7) = m ((c.tc : Thread nD τ).loc main_arg7) := (keepH_arg7 _).trans (lvG_arg7 m c)
theorem lvA1_arg8 : lvA1 m c (Proc.devRef .tc main_arg8) = m ((c.tc : Thread nD τ).loc main_arg8) := (keepA1_arg8 _).trans (rfl : launchContents m c (Proc.devRef .tc main_arg8) = m ((c.tc : Thread nD τ).loc main_arg8))
theorem lvA2_arg8 : lvA2 m c (Proc.devRef .tc main_arg8) = m ((c.tc : Thread nD τ).loc main_arg8) := (keepA2_arg8 _).trans (lvA1_arg8 m c)
theorem lvB_arg8 : lvB m c (Proc.devRef .tc main_arg8) = m ((c.tc : Thread nD τ).loc main_arg8) := (keepB_arg8 _).trans (lvA2_arg8 m c)
theorem lvC_arg8 : lvC m c (Proc.devRef .tc main_arg8) = m ((c.tc : Thread nD τ).loc main_arg8) := (keepC_arg8 _).trans (lvB_arg8 m c)
theorem lvD_arg8 : lvD m c (Proc.devRef .tc main_arg8) = m ((c.tc : Thread nD τ).loc main_arg8) := (keepD_arg8 _).trans (lvC_arg8 m c)
theorem lvE_arg8 : lvE m c (Proc.devRef .tc main_arg8) = m ((c.tc : Thread nD τ).loc main_arg8) := (keepE_arg8 _).trans (lvD_arg8 m c)
theorem lvFs_arg8 : lvFs m c (Proc.devRef .tc main_arg8) = m ((c.tc : Thread nD τ).loc main_arg8) := (keepFs_arg8 _).trans (lvE_arg8 m c)
theorem lvG_arg8 : lvG m c (Proc.devRef .tc main_arg8) = m ((c.tc : Thread nD τ).loc main_arg8) := (keepG_arg8 _).trans (lvFs_arg8 m c)
theorem lvH_arg8 : lvH m c (Proc.devRef .tc main_arg8) = m ((c.tc : Thread nD τ).loc main_arg8) := (keepH_arg8 _).trans (lvG_arg8 m c)

theorem lvA1_v3 : lvA1 m c (Proc.devRef .tc main_v3) = val_main_v3 (F := F) (m ((c.tc : Thread nD τ).loc main_arg1)) := A1_v3 _ _ (rfl : launchContents m c (Proc.devRef .tc main_arg1) = m ((c.tc : Thread nD τ).loc main_arg1))
theorem lvA1_v6 : lvA1 m c (Proc.devRef .tc main_v6) = val_main_v6 (F := F) (m ((c.tc : Thread nD τ).loc main_arg1)) := A1_v6 _ _ (rfl : launchContents m c (Proc.devRef .tc main_arg1) = m ((c.tc : Thread nD τ).loc main_arg1))
theorem lvA2_v3 : lvA2 m c (Proc.devRef .tc main_v3) = val_main_v3 (F := F) (m ((c.tc : Thread nD τ).loc main_arg1)) := (keepA2_v3 _).trans (lvA1_v3 m c)
theorem lvA2_v6 : lvA2 m c (Proc.devRef .tc main_v6) = val_main_v6 (F := F) (m ((c.tc : Thread nD τ).loc main_arg1)) := (keepA2_v6 _).trans (lvA1_v6 m c)
theorem lvA2_v7 : lvA2 m c (Proc.devRef .tc main_v7) = val_main_v7 (F := F) := A2_v7 _
theorem lvA2_v17 : lvA2 m c (Proc.devRef .tc main_v17) = val_main_v17 (F := F) (m ((c.tc : Thread nD τ).loc main_arg1)) := A2_v17 _ _ (lvA1_v6 m c)
theorem lvA2_v20 : lvA2 m c (Proc.devRef .tc main_v20) = val_main_v20 (F := F) (m ((c.tc : Thread nD τ).loc main_arg1)) := A2_v20 _ _ (lvA1_v6 m c)
theorem lvA2_cst_4 : lvA2 m c (Proc.devRef .tc main_cst_4) = val_main_cst_4 (F := F) := A2_cst_4 _
theorem lvB_v3 : lvB m c (Proc.devRef .tc main_v3) = val_main_v3 (F := F) (m ((c.tc : Thread nD τ).loc main_arg1)) := (keepB_v3 _).trans (lvA2_v3 m c)
theorem lvB_v6 : lvB m c (Proc.devRef .tc main_v6) = val_main_v6 (F := F) (m ((c.tc : Thread nD τ).loc main_arg1)) := (keepB_v6 _).trans (lvA2_v6 m c)
theorem lvB_v7 : lvB m c (Proc.devRef .tc main_v7) = val_main_v7 (F := F) := (keepB_v7 _).trans (lvA2_v7 m c)
theorem lvB_v21 : lvB m c (Proc.devRef .tc main_v21) = val_main_v21 (F := F) (m ((c.tc : Thread nD τ).loc main_arg1)) := B_v21 _ _ (lvA2_v17 m c) (lvA2_v20 m c) (lvA2_cst_4 m c)
theorem lvC_v3 : lvC m c (Proc.devRef .tc main_v3) = val_main_v3 (F := F) (m ((c.tc : Thread nD τ).loc main_arg1)) := (keepC_v3 _).trans (lvB_v3 m c)
theorem lvC_v6 : lvC m c (Proc.devRef .tc main_v6) = val_main_v6 (F := F) (m ((c.tc : Thread nD τ).loc main_arg1)) := (keepC_v6 _).trans (lvB_v6 m c)
theorem lvC_v37 : lvC m c (Proc.devRef .tc main_v37) = val_main_v37 (F := F) (m ((c.tc : Thread nD τ).loc main_arg1)) := C_v37 _ _ (lvB_v3 m c) (lvB_v6 m c) (lvB_v21 m c) (lvB_v7 m c)
theorem lvD_v3 : lvD m c (Proc.devRef .tc main_v3) = val_main_v3 (F := F) (m ((c.tc : Thread nD τ).loc main_arg1)) := (keepD_v3 _).trans (lvC_v3 m c)
theorem lvD_v6 : lvD m c (Proc.devRef .tc main_v6) = val_main_v6 (F := F) (m ((c.tc : Thread nD τ).loc main_arg1)) := (keepD_v6 _).trans (lvC_v6 m c)
theorem lvD_v37 : lvD m c (Proc.devRef .tc main_v37) = val_main_v37 (F := F) (m ((c.tc : Thread nD τ).loc main_arg1)) := (keepD_v37 _).trans (lvC_v37 m c)
theorem lvD_v38 : lvD m c (Proc.devRef .tc main_v38) = val_main_v38 (F := F) (m ((c.tc : Thread nD τ).loc main_arg0)) (m ((c.tc : Thread nD τ).loc main_arg3)) := D_v38 _ _ _ (lvC_arg0 m c) (lvC_arg3 m c)
theorem lvE_v3 : lvE m c (Proc.devRef .tc main_v3) = val_main_v3 (F := F) (m ((c.tc : Thread nD τ).loc main_arg1)) := (keepE_v3 _).trans (lvD_v3 m c)
theorem lvE_v6 : lvE m c (Proc.devRef .tc main_v6) = val_main_v6 (F := F) (m ((c.tc : Thread nD τ).loc main_arg1)) := (keepE_v6 _).trans (lvD_v6 m c)
theorem lvE_v37 : lvE m c (Proc.devRef .tc main_v37) = val_main_v37 (F := F) (m ((c.tc : Thread nD τ).loc main_arg1)) := (keepE_v37 _).trans (lvD_v37 m c)
theorem lvE_v56 : lvE m c (Proc.devRef .tc main_v56) = val_main_v56 (F := F) (m ((c.tc : Thread nD τ).loc main_arg0)) (m ((c.tc : Thread nD τ).loc main_arg1)) (m ((c.tc : Thread nD τ).loc main_arg3)) := E_v56 _ _ _ _ (lvD_v38 m c) (lvD_v37 m c) (lvD_v3 m c) (lvD_v6 m c)
theorem lvFs_v3 : lvFs m c (Proc.devRef .tc main_v3) = val_main_v3 (F := F) (m ((c.tc : Thread nD τ).loc main_arg1)) := (keepFs_v3 _).trans (lvE_v3 m c)
theorem lvFs_v6 : lvFs m c (Proc.devRef .tc main_v6) = val_main_v6 (F := F) (m ((c.tc : Thread nD τ).loc main_arg1)) := (keepFs_v6 _).trans (lvE_v6 m c)
theorem lvFs_v37 : lvFs m c (Proc.devRef .tc main_v37) = val_main_v37 (F := F) (m ((c.tc : Thread nD τ).loc main_arg1)) := (keepFs_v37 _).trans (lvE_v37 m c)
theorem lvFs_v61 : lvFs m c (Proc.devRef .tc main_v61) = val_main_v61 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := Fs_v61 _ _ _ _ _ _ (lvE_v56 m c) (lvE_arg4 m c) (lvE_arg5 m c)
theorem lvG_v94 : lvG m c (Proc.devRef .tc main_v94) = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := G_v94 _ _ _ _ _ _ _ _ (lvFs_v61 m c) (lvFs_v37 m c) (lvFs_v3 m c) (lvFs_v6 m c) (lvFs_arg6 m c) (lvFs_arg2 m c)
theorem lvH_v98 : lvH m c (Proc.devRef .tc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := H_v98 _ _ _ _ _ _ _ _ _ _ (lvG_v94 m c) (lvG_arg7 m c) (lvG_arg8 m c)

/-- All the operations from the launch contents leave what the last stretch leaves. -/
theorem after_ops_eq : after (ops (F := F)) (launchContents m c) = lvH m c := by
  rw [ops_split]
  simp only [after_append]
  rfl

end Levels

/-- On every device, from any memory with zero counters: every weakly fair execution of the reference's @main terminates
    with its result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v98).trans ((congrFun (after_ops_eq m c) _).trans (lvH_v98 m c)),
      (h c main_arg0).trans ((congrFun (after_ops_eq m c) _).trans (lvH_arg0 m c)),
      (h c main_arg1).trans ((congrFun (after_ops_eq m c) _).trans (lvH_arg1 m c)),
      (h c main_arg2).trans ((congrFun (after_ops_eq m c) _).trans (lvH_arg2 m c)),
      (h c main_arg3).trans ((congrFun (after_ops_eq m c) _).trans (lvH_arg3 m c)),
      (h c main_arg4).trans ((congrFun (after_ops_eq m c) _).trans (lvH_arg4 m c)),
      (h c main_arg5).trans ((congrFun (after_ops_eq m c) _).trans (lvH_arg5 m c)),
      (h c main_arg6).trans ((congrFun (after_ops_eq m c) _).trans (lvH_arg6 m c)),
      (h c main_arg7).trans ((congrFun (after_ops_eq m c) _).trans (lvH_arg7 m c)),
      (h c main_arg8).trans ((congrFun (after_ops_eq m c) _).trans (lvH_arg8 m c))⟩)
    (run_seq scopedRefs_eq scopedSems_eq defs main (fun _ => ops) main_eq (fun _ => ops_sub) m ρ)

end Cert.ReferenceIdeal.RefRun

end
-- ==== Proof.lean ====
/-
  A two-layer graph convolution with mean pooling and a linear read-out, as a kernel and as its reference.

  Both programs compute, from the node features x, the edge list and the graph assignment: the edge list with a self loop
  at every node; every node's degree d and the weight d(s)^(-1/2) · d(t)^(-1/2) of every edge (s, t); the first layer
  h = relu(A (x W1) + b1), where A scatters the weighted rows along the edges; the second layer A (h W2) + b2; its mean
  over every graph; and the read-out pooled · Wlin + blin. The gathers, the weighting, the scatter-adds and the pooling are
  the same host operations in the same order in both programs. The kernel computes the three matrix products in three
  pipelined regions (ten row blocks of 10000 nodes for the first two, one block for the read-out), fusing the first
  bias and the cut at zero into the second and the last bias into the third; the reference computes them by the host's
  matrix product and separate broadcasts. On the extended reals a matrix product's entry (p, q) is the sum over k of
  x(p, k) · w(k, q) whichever of the two computes it, a row block of a product depends only on that row block of the left
  factor, and the ten row blocks cover the rows: so every intermediate array, and the result, is the same function of the
  arguments in both programs, index by index. No law of the extended reals beyond reading each operation is used, and the
  precondition (finite inputs) is not needed.

  The frames of the two kernel programs are the generated ones; the reference's frame is its run with the result dropped;
  the idealization rewrote nothing, so `preserves` is trivial.
-/
import proofs.«158617_j85349590106379_1_alg».proof.Defs
import proofs.«158617_j85349590106379_1_alg».proof.Proof.Gen.Kernel
import proofs.«158617_j85349590106379_1_alg».proof.Proof.Gen.Kernel.Skeleton
import proofs.«158617_j85349590106379_1_alg».proof.Proof.Gen.Kernel.Launch
import proofs.«158617_j85349590106379_1_alg».proof.Proof.Gen.Kernel.Points
import proofs.«158617_j85349590106379_1_alg».proof.Proof.Gen.Kernel.Frame
import proofs.«158617_j85349590106379_1_alg».proof.Proof.Gen.KernelIdeal
import proofs.«158617_j85349590106379_1_alg».proof.Proof.Gen.KernelIdeal.Skeleton
import proofs.«158617_j85349590106379_1_alg».proof.Proof.Gen.KernelIdeal.Launch
import proofs.«158617_j85349590106379_1_alg».proof.Proof.Gen.KernelIdeal.Points
import proofs.«158617_j85349590106379_1_alg».proof.Proof.Gen.KernelIdeal.Frame
import proofs.«158617_j85349590106379_1_alg».proof.Proof.Gen.ReferenceIdeal
import proofs.«158617_j85349590106379_1_alg».proof.Proof.Gen.Pre_finite_inputs
import proofs.«158617_j85349590106379_1_alg».proof.Proof.KRun
import proofs.«158617_j85349590106379_1_alg».proof.Proof.KVal
import proofs.«158617_j85349590106379_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the reference's last stage of the arguments in their
    result arrays. -/
theorem algebraic : Cert.algebraic_KernelIdeal_ReferenceIdeal := by
  intro m ρ m' ρ' _ hagree
  refine ⟨fun c => Cert.ReferenceIdeal.ReadP.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KVal.W8_main_v93 m ρ c), (h c).2⟩) (Cert.KernelIdeal.KRun.run_out m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
